-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2097152x3 : Shape := ⟨2, ![2097152, 3]⟩
abbrev S2x2 : Shape := ⟨2, ![2, 2]⟩
abbrev S3x2 : Shape := ⟨2, ![3, 2]⟩
abbrev S2x3 : Shape := ⟨2, ![2, 3]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S2x2 : S_.BroadcastsInDim S2x2 (![] : Fin 0 → Fin S2x2.rank)
  reducesTo_S2x2_S_d0_1 : S2x2.ReducesTo [0, 1] S_
  bcast_S_S3x2 : S_.BroadcastsInDim S3x2 (![] : Fin 0 → Fin S3x2.rank)
  reducesTo_S3x2_S_d0_1 : S3x2.ReducesTo [0, 1] S_
  bcast_S_S2x3 : S_.BroadcastsInDim S2x3 (![] : Fin 0 → Fin S2x3.rank)
  reducesTo_S2x3_S_d0_1 : S2x3.ReducesTo [0, 1] S_

variable [Facts]

def fn_part1 {F : FTy → Type} [FloatOps F] (main_arg4 : FVec F S2x2 .f32) (main_arg5 : FVec F S3x2 .f32) (main_arg6 : FVec F S2x3 .f32) (main_v13 : IVec S_ 1) (main_v16 : IVec S2097152x2 1) : IVec S_ 1 :=
  let main_c_5 : IVec S_ 1 := constantI S_ 1 1#1
  let main_v17 : IVec S_ 1 := (fun x v => Host.reduce IntOp.andi x v reducesTo_S2097152x2_S_d0_1 h_S_) main_v16 main_c_5
  let main_v18 : IVec S_ 1 := andi main_v13 main_v17
  let main_v19 : FVec F S2x2 .f32 := Host.absf main_arg4
  let main_cst_6 : FVec F S_ .f32 := constant S_ .f32 0x7F800000#32
  let main_v20 : FVec F S2x2 .f32 := broadcastInDim S2x2 ![] bcast_S_S2x2 main_cst_6
  let main_v21 : IVec S2x2 1 := cmpf .olt main_v19 main_v20
  let main_c_7 : IVec S_ 1 := constantI S_ 1 1#1
  let main_v22 : IVec S_ 1 := (fun x v => Host.reduce IntOp.andi x v reducesTo_S2x2_S_d0_1 h_S_) main_v21 main_c_7
  let main_v23 : IVec S_ 1 := andi main_v18 main_v22
  let main_v24 : FVec F S3x2 .f32 := Host.absf main_arg5
  let main_cst_8 : FVec F S_ .f32 := constant S_ .f32 0x7F800000#32
  let main_v25 : FVec F S3x2 .f32 := broadcastInDim S3x2 ![] bcast_S_S3x2 main_cst_8
  let main_v26 : IVec S3x2 1 := cmpf .olt main_v24 main_v25
  let main_c_9 : IVec S_ 1 := constantI S_ 1 1#1
  let main_v27 : IVec S_ 1 := (fun x v => Host.reduce IntOp.andi x v reducesTo_S3x2_S_d0_1 h_S_) main_v26 main_c_9
  let main_v28 : IVec S_ 1 := andi main_v23 main_v27
  let main_v29 : FVec F S2x3 .f32 := Host.absf main_arg6
  let main_cst_10 : FVec F S_ .f32 := constant S_ .f32 0x7F800000#32
  let main_v30 : FVec F S2x3 .f32 := broadcastInDim S2x3 ![] bcast_S_S2x3 main_cst_10
  let main_v31 : IVec S2x3 1 := cmpf .olt main_v29 main_v30
  let main_c_11 : IVec S_ 1 := constantI S_ 1 1#1
  let main_v32 : IVec S_ 1 := (fun x v => Host.reduce IntOp.andi x v reducesTo_S2x3_S_d0_1 h_S_) main_v31 main_c_11
  let main_v33 : IVec S_ 1 := andi main_v28 main_v32
  main_v33

def fn {F : FTy → Type} [FloatOps F] (main_arg0 : FVec F S2097152x2 .f32) (main_arg1 : FVec F S2097152x2 .f32) (main_arg2 : FVec F S2097152x3 .f32) (main_arg3 : FVec F S2097152x2 .f32) (main_arg4 : FVec F S2x2 .f32) (main_arg5 : FVec F S3x2 .f32) (main_arg6 : FVec F S2x3 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2097152x2 .f32 := Host.absf main_arg1
  let main_cst_0 : FVec F S_ .f32 := constant S_ .f32 0x7F800000#32
  let main_v5 : FVec F S2097152x2 .f32 := broadcastInDim S2097152x2 ![] bcast_S_S2097152x2 main_cst_0
  let main_v6 : IVec S2097152x2 1 := cmpf .olt main_v4 main_v5
  let main_c_1 : IVec S_ 1 := constantI S_ 1 1#1
  let main_v7 : IVec S_ 1 := (fun x v => Host.reduce IntOp.andi x v reducesTo_S2097152x2_S_d0_1 h_S_) main_v6 main_c_1
  let main_v8 : IVec S_ 1 := andi main_v3 main_v7
  let main_v9 : FVec F S2097152x3 .f32 := Host.absf main_arg2
  let main_cst_2 : FVec F S_ .f32 := constant S_ .f32 0x7F800000#32
  let main_v10 : FVec F S2097152x3 .f32 := broadcastInDim S2097152x3 ![] bcast_S_S2097152x3 main_cst_2
  let main_v11 : IVec S2097152x3 1 := cmpf .olt main_v9 main_v10
  let main_c_3 : IVec S_ 1 := constantI S_ 1 1#1
  let main_v12 : IVec S_ 1 := (fun x v => Host.reduce IntOp.andi x v reducesTo_S2097152x3_S_d0_1 h_S_) main_v11 main_c_3
  let main_v13 : IVec S_ 1 := andi main_v8 main_v12
  let main_v14 : FVec F S2097152x2 .f32 := Host.absf main_arg3
  let main_cst_4 : FVec F S_ .f32 := constant S_ .f32 0x7F800000#32
  let main_v15 : FVec F S2097152x2 .f32 := broadcastInDim S2097152x2 ![] bcast_S_S2097152x2 main_cst_4
  let main_v16 : IVec S2097152x2 1 := cmpf .olt main_v14 main_v15
  fn_part1 (F := F) main_arg4 main_arg5 main_arg6 main_v13 main_v16
-- ==== Kernel.lean ====
abbrev S2097152x2 : Shape := ⟨2, ![2097152, 2]⟩
abbrev S2097152x3 : Shape := ⟨2, ![2097152, 3]⟩
abbrev S2x2 : Shape := ⟨2, ![2, 2]⟩
abbrev S3x2 : Shape := ⟨2, ![3, 2]⟩
abbrev S2x3 : Shape := ⟨2, ![2, 3]⟩
abbrev S16384x256 : Shape := ⟨2, ![16384, 256]⟩
abbrev S16384x384 : Shape := ⟨2, ![16384, 384]⟩
abbrev S128x128 : Shape := ⟨2, ![128, 128]⟩
abbrev S_ : Shape := ⟨0, ![]⟩
abbrev S128x1x128x1 : Shape := ⟨4, ![128, 1, 128, 1]⟩
abbrev S1x2x1x2 : Shape := ⟨4, ![1, 2, 1, 2]⟩
abbrev S128x2x128x2 : Shape := ⟨4, ![128, 2, 128, 2]⟩
abbrev S256x256 : Shape := ⟨2, ![256, 256]⟩
abbrev S1x2x1x3 : Shape := ⟨4, ![1, 2, 1, 3]⟩
abbrev S128x2x128x3 : Shape := ⟨4, ![128, 2, 128, 3]⟩
abbrev S256x384 : Shape := ⟨2, ![256, 384]⟩
abbrev S1x3x1x2 : Shape := ⟨4, ![1, 3, 1, 2]⟩
abbrev S128x3x128x2 : Shape := ⟨4, ![128, 3, 128, 2]⟩
abbrev S384x256 : Shape := ⟨2, ![384, 256]⟩
abbrev S1024x256 : Shape := ⟨2, ![1024, 256]⟩
abbrev S1024x384 : Shape := ⟨2, ![1024, 384]⟩

abbrev nBuf : Space → Nat
  | .hbm => 47
  | .vmem => 19
  | .smem => 0
  | _ => 0

abbrev bufTy : (tb : Table) → Fin (tcTables nBuf tb) → BufTy
  | .hbm, ⟨0, _⟩ => ⟨S2097152x2, .f32⟩
  | .hbm, ⟨1, _⟩ => ⟨S2097152x2, .f32⟩
  | .hbm, ⟨2, _⟩ => ⟨S2097152x3, .f32⟩
  | .hbm, ⟨3, _⟩ => ⟨S2097152x2, .f32⟩
  | .hbm, ⟨4, _⟩ => ⟨S2x2, .f32⟩
  | .hbm, ⟨5, _⟩ => ⟨S3x2, .f32⟩
  | .hbm, ⟨6, _⟩ => ⟨S2x3, .f32⟩
  | .hbm, ⟨7, _⟩ => ⟨S16384x256, .f32⟩
  | .hbm, ⟨8, _⟩ => ⟨S16384x256, .f32⟩
  | .hbm, ⟨9, _⟩ => ⟨S16384x384, .f32⟩
  | .hbm, ⟨10, _⟩ => ⟨S16384x256, .f32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .f32⟩
  | .hbm, ⟨18, _⟩ => ⟨S2x2, .f32⟩
  | .hbm, ⟨19, _⟩ => ⟨S128x1x128x1, .f32⟩
  | .hbm, ⟨20, _⟩ => ⟨S1x2x1x2, .f32⟩
  | .hbm, ⟨21, _⟩ => ⟨S128x2x128x2, .f32⟩
  | .hbm, ⟨22, _⟩ => ⟨S128x2x128x2, .f32⟩
  | .hbm, ⟨23, _⟩ => ⟨S128x2x128x2, .f32⟩
  | .hbm, ⟨24, _⟩ => ⟨S256x256, .f32⟩
  | .hbm, ⟨25, _⟩ => ⟨S2x3, .f32⟩
  | .hbm, ⟨26, _⟩ => ⟨S128x1x128x1, .f32⟩
  | .hbm, ⟨27, _⟩ => ⟨S1x2x1x3, .f32⟩
  | .hbm, ⟨28, _⟩ => ⟨S128x2x128x3, .f32⟩
  | .hbm, ⟨29, _⟩ => ⟨S128x2x128x3, .f32⟩
  | .hbm, ⟨30, _⟩ => ⟨S128x2x128x3, .f32⟩
  | .hbm, ⟨31, _⟩ => ⟨S256x384, .f32⟩
  | .hbm, ⟨32, _⟩ => ⟨S3x2, .f32⟩
  | .hbm, ⟨33, _⟩ => ⟨S128x1x128x1, .f32⟩
  | .hbm, ⟨34, _⟩ => ⟨S1x3x1x2, .f32⟩
  | .hbm, ⟨35, _⟩ => ⟨S128x3x128x2, .f32⟩
  | .hbm, ⟨36, _⟩ => ⟨S128x3x128x2, .f32⟩
  | .hbm, ⟨37, _⟩ => ⟨S128x3x128x2, .f32⟩
  | .hbm, ⟨38, _⟩ => ⟨S384x256, .f32⟩
  | .hbm, ⟨39, _⟩ => ⟨S16384x256, .f32⟩
  | .hbm, ⟨40, _⟩ => ⟨S16384x256, .f32⟩
  | .hbm, ⟨41, _⟩ => ⟨S16384x384, .f32⟩
  | .hbm, ⟨42, _⟩ => ⟨S16384x256, .f32⟩
  | .hbm, ⟨43, _⟩ => ⟨S2097152x2, .f32⟩
  | .hbm, ⟨44, _⟩ => ⟨S2097152x2, .f32⟩
  | .hbm, ⟨45, _⟩ => ⟨S2097152x3, .f32⟩
  | .hbm, ⟨46, _⟩ => ⟨S2097152x2, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x384, .f32⟩
  | .local _ .vmem, ⟨5, _⟩ => ⟨S1024x384, .f32⟩
  | .local _ .vmem, ⟨6, _⟩ => ⟨S1024x256, .f32⟩
  | .local _ .vmem, ⟨7, _⟩ => ⟨S1024x256, .f32⟩
  | .local _ .vmem, ⟨8, _⟩ => ⟨S256x256, .f32⟩
  | .local _ .vmem, ⟨9, _⟩ => ⟨S256x384, .f32⟩
  | .local _ .vmem, ⟨10, _⟩ => ⟨S384x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x384, .f32⟩
  | .local _ .vmem, ⟨16, _⟩ => ⟨S1024x384, .f32⟩
  | .local _ .vmem, ⟨17, _⟩ => ⟨S1024x256, .f32⟩
  | .local _ .vmem, ⟨18, _⟩ => ⟨S1024x256, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_v14 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_v16_0 : Ref sig .tc := ⟨.hbm, 39, rfl⟩
abbrev main_v16_1 : Ref sig .tc := ⟨.hbm, 40, rfl⟩
abbrev main_v16_2 : Ref sig .tc := ⟨.hbm, 41, rfl⟩
abbrev main_v16_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S2097152x2_S16384x256 : S2097152x2.ShapeCasts S16384x256
  shapeCasts_S2097152x3_S16384x384 : S2097152x3.ShapeCasts S16384x384
  bcast_S_S128x128 : S_.BroadcastsInDim S128x128 (![] : Fin 0 → Fin S128x128.rank)
  transposes_S2x2_S2x2_1_0 : S2x2.Transposes [1, 0] S2x2
  bcast_S128x128_S128x1x128x1_0_2 : S128x128.BroadcastsInDim S128x1x128x1 (![0, 2] : Fin 2 → Fin S128x1x128x1.rank)
  bcast_S2x2_S1x2x1x2_1_3 : S2x2.BroadcastsInDim S1x2x1x2 (![1, 3] : Fin 2 → Fin S1x2x1x2.rank)
  bcast_S128x1x128x1_S128x2x128x2_0_1_2_3 : S128x1x128x1.BroadcastsInDim S128x2x128x2 (![0, 1, 2, 3] : Fin 4 → Fin S128x2x128x2.rank)
  bcast_S1x2x1x2_S128x2x128x2_0_1_2_3 : S1x2x1x2.BroadcastsInDim S128x2x128x2 (![0, 1, 2, 3] : Fin 4 → Fin S128x2x128x2.rank)
  shapeCasts_S128x2x128x2_S256x256 : S128x2x128x2.ShapeCasts S256x256
  transposes_S3x2_S2x3_1_0 : S3x2.Transposes [1, 0] S2x3
  bcast_S2x3_S1x2x1x3_1_3 : S2x3.BroadcastsInDim S1x2x1x3 (![1, 3] : Fin 2 → Fin S1x2x1x3.rank)
  bcast_S128x1x128x1_S128x2x128x3_0_1_2_3 : S128x1x128x1.BroadcastsInDim S128x2x128x3 (![0, 1, 2, 3] : Fin 4 → Fin S128x2x128x3.rank)
  bcast_S1x2x1x3_S128x2x128x3_0_1_2_3 : S1x2x1x3.BroadcastsInDim S128x2x128x3 (![0, 1, 2, 3] : Fin 4 → Fin S128x2x128x3.rank)
  shapeCasts_S128x2x128x3_S256x384 : S128x2x128x3.ShapeCasts S256x384
  transposes_S2x3_S3x2_1_0 : S2x3.Transposes [1, 0] S3x2
  bcast_S3x2_S1x3x1x2_1_3 : S3x2.BroadcastsInDim S1x3x1x2 (![1, 3] : Fin 2 → Fin S1x3x1x2.rank)
  bcast_S128x1x128x1_S128x3x128x2_0_1_2_3 : S128x1x128x1.BroadcastsInDim S128x3x128x2 (![0, 1, 2, 3] : Fin 4 → Fin S128x3x128x2.rank)
  bcast_S1x3x1x2_S128x3x128x2_0_1_2_3 : S1x3x1x2.BroadcastsInDim S128x3x128x2 (![0, 1, 2, 3] : Fin 4 → Fin S128x3x128x2.rank)
  shapeCasts_S128x3x128x2_S384x256 : S128x3x128x2.ShapeCasts S384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  natLt_1_32 : 1 < 32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  shapeCasts_S16384x256_S2097152x2 : S16384x256.ShapeCasts S2097152x2
  shapeCasts_S16384x384_S2097152x3 : S16384x384.ShapeCasts S2097152x3
  dot_S1024x256_S256x256_S1024x256_1_0_0_1_n_n_wf : DotDims.WF S1024x256 S256x256 S1024x256 [1] [0] [0] [1] [] []
  dot_S1024x256_S256x384_S1024x384_1_0_0_1_n_n_wf : DotDims.WF S1024x256 S256x384 S1024x384 [1] [0] [0] [1] [] []
  dot_S1024x384_S384x256_S1024x256_1_0_0_1_n_n_wf : DotDims.WF S1024x384 S384x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x384.size a ≤ S16384x384.size a
  hwx0_2 : ∀ i : grid0.Coords, EltTy.bits .f32 = 32 ∨ (Rect.block (s := S16384x384) S1024x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x384.size a ≤ S256x384.size a
  hwx0_5 : ∀ i : grid0.Coords, EltTy.bits .f32 = 32 ∨ (Rect.block (s := S256x384) S256x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x256.size a ≤ S384x256.size a
  hwx0_6 : ∀ i : grid0.Coords, EltTy.bits .f32 = 32 ∨ (Rect.block (s := S384x256) S384x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .f32 = 32 ∨ (Rect.block (s := S16384x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S16384x256.size a
  hwx0_8 : ∀ i : grid0.Coords, EltTy.bits .f32 = 32 ∨ (Rect.block (s := S16384x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x384.size a ≤ S16384x384.size a
  hwx0_9 : ∀ i : grid0.Coords, EltTy.bits .f32 = 32 ∨ (Rect.block (s := S16384x384) S1024x384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S16384x256.size a
  hwx0_10 : ∀ i : grid0.Coords, EltTy.bits .f32 = 32 ∨ (Rect.block (s := S16384x256) S1024x256.size (cc0_transform_10 i) (hinb0_10 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x384_S1024x384_1_0_0_1_n_n : DotDims S1024x256 S256x384 S1024x384 where
  lhsContracting := [1]
  rhsContracting := [0]
  lhsNonContracting := [0]
  rhsNonContracting := [1]
  lhsBatch := []
  rhsBatch := []
  wf := dot_S1024x256_S256x384_S1024x384_1_0_0_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S384x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_2) S1024x384.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_3) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2097152x3 : Shape := ⟨2, ![2097152, 3]⟩
abbrev S2x2 : Shape := ⟨2, ![2, 2]⟩
abbrev S3x2 : Shape := ⟨2, ![3, 2]⟩
abbrev S2x3 : Shape := ⟨2, ![2, 3]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2097152x2, .f32⟩
  | .hbm, ⟨1, _⟩ => ⟨S2097152x2, .f32⟩
  | .hbm, ⟨2, _⟩ => ⟨S2097152x3, .f32⟩
  | .hbm, ⟨3, _⟩ => ⟨S2097152x2, .f32⟩
  | .hbm, ⟨4, _⟩ => ⟨S2x2, .f32⟩
  | .hbm, ⟨5, _⟩ => ⟨S3x2, .f32⟩
  | .hbm, ⟨6, _⟩ => ⟨S2x3, .f32⟩
  | .hbm, ⟨7, _⟩ => ⟨S2x2, .f32⟩
  | .hbm, ⟨8, _⟩ => ⟨S2097152x2, .f32⟩
  | .hbm, ⟨9, _⟩ => ⟨S_, .f32⟩
  | .hbm, ⟨10, _⟩ => ⟨S2097152x2, .f32⟩
  | .hbm, ⟨11, _⟩ => ⟨S2097152x2, .i1⟩
  | .hbm, ⟨12, _⟩ => ⟨S2097152x2, .f32⟩
  | .hbm, ⟨13, _⟩ => ⟨S_, .f32⟩
  | .hbm, ⟨14, _⟩ => ⟨S2097152x2, .f32⟩
  | .hbm, ⟨15, _⟩ => ⟨S2097152x2, .f32⟩
  | .hbm, ⟨16, _⟩ => ⟨S2097152x2, .f32⟩
  | .hbm, ⟨17, _⟩ => ⟨S_, .f32⟩
  | .hbm, ⟨18, _⟩ => ⟨S2097152x2, .f32⟩
  | .hbm, ⟨19, _⟩ => ⟨S2097152x2, .f32⟩
  | .hbm, ⟨20, _⟩ => ⟨S2097152x2, .f32⟩
  | .hbm, ⟨21, _⟩ => ⟨S_, .f32⟩
  | .hbm, ⟨22, _⟩ => ⟨S2097152x2, .f32⟩
  | .hbm, ⟨23, _⟩ => ⟨S2097152x2, .f32⟩
  | .hbm, ⟨24, _⟩ => ⟨S_, .f32⟩
  | .hbm, ⟨25, _⟩ => ⟨S2097152x2, .f32⟩
  | .hbm, ⟨26, _⟩ => ⟨S2097152x2, .i1⟩
  | .hbm, ⟨27, _⟩ => ⟨S2097152x2, .f32⟩
  | .hbm, ⟨28, _⟩ => ⟨S2x3, .f32⟩
  | .hbm, ⟨29, _⟩ => ⟨S2097152x3, .f32⟩
  | .hbm, ⟨30, _⟩ => ⟨S_, .f32⟩
  | .hbm, ⟨31, _⟩ => ⟨S2097152x3, .f32⟩
  | .hbm, ⟨32, _⟩ => ⟨S2097152x3, .i1⟩
  | .hbm, ⟨33, _⟩ => ⟨S2097152x3, .f32⟩
  | .hbm, ⟨34, _⟩ => ⟨S_, .f32⟩
  | .hbm, ⟨35, _⟩ => ⟨S2097152x3, .f32⟩
  | .hbm, ⟨36, _⟩ => ⟨S2097152x3, .f32⟩
  | .hbm, ⟨37, _⟩ => ⟨S2097152x3, .f32⟩
  | .hbm, ⟨38, _⟩ => ⟨S_, .f32⟩
  | .hbm, ⟨39, _⟩ => ⟨S2097152x3, .f32⟩
  | .hbm, ⟨40, _⟩ => ⟨S2097152x3, .f32⟩
  | .hbm, ⟨41, _⟩ => ⟨S2097152x3, .f32⟩
  | .hbm, ⟨42, _⟩ => ⟨S_, .f32⟩
  | .hbm, ⟨43, _⟩ => ⟨S2097152x3, .f32⟩
  | .hbm, ⟨44, _⟩ => ⟨S2097152x3, .f32⟩
  | .hbm, ⟨45, _⟩ => ⟨S_, .f32⟩
  | .hbm, ⟨46, _⟩ => ⟨S2097152x3, .f32⟩
  | .hbm, ⟨47, _⟩ => ⟨S2097152x3, .i1⟩
  | .hbm, ⟨48, _⟩ => ⟨S2097152x3, .f32⟩
  | .hbm, ⟨49, _⟩ => ⟨S3x2, .f32⟩
  | .hbm, ⟨50, _⟩ => ⟨S2097152x2, .f32⟩
  | .hbm, ⟨51, _⟩ => ⟨S_, .f32⟩
  | .hbm, ⟨52, _⟩ => ⟨S2097152x2, .f32⟩
  | .hbm, ⟨53, _⟩ => ⟨S2097152x2, .i1⟩
  | .hbm, ⟨54, _⟩ => ⟨S2097152x2, .f32⟩
  | .hbm, ⟨55, _⟩ => ⟨S_, .f32⟩
  | .hbm, ⟨56, _⟩ => ⟨S2097152x2, .f32⟩
  | .hbm, ⟨57, _⟩ => ⟨S2097152x2, .f32⟩
  | .hbm, ⟨58, _⟩ => ⟨S2097152x2, .f32⟩
  | .hbm, ⟨59, _⟩ => ⟨S_, .f32⟩
  | .hbm, ⟨60, _⟩ => ⟨S2097152x2, .f32⟩
  | .hbm, ⟨61, _⟩ => ⟨S2097152x2, .f32⟩
  | .hbm, ⟨62, _⟩ => ⟨S2097152x2, .f32⟩
  | .hbm, ⟨63, _⟩ => ⟨S_, .f32⟩
  | .hbm, ⟨64, _⟩ => ⟨S2097152x2, .f32⟩
  | .hbm, ⟨65, _⟩ => ⟨S2097152x2, .f32⟩
  | .hbm, ⟨66, _⟩ => ⟨S_, .f32⟩
  | .hbm, ⟨67, _⟩ => ⟨S2097152x2, .f32⟩
  | .hbm, ⟨68, _⟩ => ⟨S2097152x2, .i1⟩
  | .hbm, ⟨69, _⟩ => ⟨S2097152x2, .f32⟩
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  transposes_S2x2_S2x2_1_0 : S2x2.Transposes [1, 0] S2x2
  bcast_S_S2097152x2 : S_.BroadcastsInDim S2097152x2 (![] : Fin 0 → Fin S2097152x2.rank)
  transposes_S3x2_S2x3_1_0 : S3x2.Transposes [1, 0] S2x3
  bcast_S_S2097152x3 : S_.BroadcastsInDim S2097152x3 (![] : Fin 0 → Fin S2097152x3.rank)
  transposes_S2x3_S3x2_1_0 : S2x3.Transposes [1, 0] S3x2
  dot_S2097152x2_S2x2_S2097152x2_1_0_0_1_n_n_wf : DotDims.WF S2097152x2 S2x2 S2097152x2 [1] [0] [0] [1] [] []
  dot_S2097152x2_S2x3_S2097152x3_1_0_0_1_n_n_wf : DotDims.WF S2097152x2 S2x3 S2097152x3 [1] [0] [0] [1] [] []
  dot_S2097152x3_S3x2_S2097152x2_1_0_0_1_n_n_wf : DotDims.WF S2097152x3 S3x2 S2097152x2 [1] [0] [0] [1] [] []

variable [Facts₀]

def dot_S2097152x2_S2x2_S2097152x2_1_0_0_1_n_n : DotDims S2097152x2 S2x2 S2097152x2 where
  lhsContracting := [1]
  rhsContracting := [0]
  lhsNonContracting := [0]
  rhsNonContracting := [1]
  lhsBatch := []
  rhsBatch := []
  wf := dot_S2097152x2_S2x2_S2097152x2_1_0_0_1_n_n_wf
def dot_S2097152x2_S2x3_S2097152x3_1_0_0_1_n_n : DotDims S2097152x2 S2x3 S2097152x3 where
  lhsContracting := [1]
  rhsContracting := [0]
  lhsNonContracting := [0]
  rhsNonContracting := [1]
  lhsBatch := []
  rhsBatch := []
  wf := dot_S2097152x2_S2x3_S2097152x3_1_0_0_1_n_n_wf
def dot_S2097152x3_S3x2_S2097152x2_1_0_0_1_n_n : DotDims S2097152x3 S3x2 S2097152x2 where
  lhsContracting := [1]
  rhsContracting := [0]
  lhsNonContracting := [0]
  rhsNonContracting := [1]
  lhsBatch := []
  rhsBatch := []
  wf := dot_S2097152x3_S3x2_S2097152x2_1_0_0_1_n_n_wf

class Facts : Prop extends Facts₀ where

variable [Facts]
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Spec.lean ====
/-
  Three Linear (no bias) + leaky-integrate-and-fire layers applied to every row of a batch, as ONE function used at
  three scales: a block of packed rows, the whole packed array, and the plain batch.

  Scalars (extended reals).  With leak λ, threshold θ:
      lif mem cur = (λ · mem + cur) · (1 − [mem > θ])        the membrane after one step, reset to zero where it had fired
      spk v       = [v − θ > 0]                               the spike
  where [·] is 1 or 0.  A layer on a matrix of rows is  layer a W mem (r, l) = lif (mem (r, l)) (∑ₖ a (r, k) · W (k, l)).

  Packing.  G consecutive rows of width D, read as ONE row of width G · D (the same row-major positions), and the weight
  W replaced by the block-diagonal matrix B with B (g'·K + i, g·L + o) = δ(g', g) · W (i, o).  In the packed row's sum over
  G · K lanes every off-diagonal term is a · (0 · w) = 0 and the diagonal block's terms are a · (1 · w) = a · w, so the packed
  layer at (r, g·L + o) is the plain layer at (r·G + g, o) (`rel_layer`).  Only 0 · w = 0, w · 0 = 0, 1 · w = w and the
  commutative-monoid laws of + are used: all hold on the extended reals, at the infinities too, so no finiteness is asked.

  Rows.  A block of consecutive rows of a matrix is a matrix of rows, and a layer acts row by row, so the layer of a block
  is the block of the layer (`rows_layer`).
-/
import Idealize.ShloMosaic.PureOps.Ideal
import Idealize.ShloMosaic.PureOps.Ideal.Laws
import Idealize.ShloMosaic.Lib.ValueIdx
import proofs.«153012_j17188459118719_2_alg».proof.Proof.LibBlockSum

noncomputable section

namespace Cert.Snn

open Idealize.ShloMosaic Idealize.ShloMosaic.ValueIdx Cert.Lib.BlockSum

/-! ## Scalars -/

/-- A one-bit word as the extended real 0 or 1. -/
def ind (b : BitVec 1) : EReal := ((b.toNat : ℝ) : EReal)

/-- The leak factor λ (the f32 nearest exp(−1/10); the same word in both programs, never evaluated). -/
def leak : EReal := Ideal.ofBits .f32 0x3F67A36D#32
/-- The threshold θ = 15. -/
def thr : EReal := Ideal.ofBits .f32 0x41700000#32
/-- The word 1.0. -/
def one : EReal := Ideal.ofBits .f32 0x3F800000#32
/-- The word 0.0. -/
def zero : EReal := Ideal.ofBits .f32 0x00000000#32

/-- The membrane after one step: leak, integrate the current, reset to zero where the OLD membrane was above threshold. -/
def lif (mem cur : EReal) : EReal := (leak * mem + cur) * (one - ind (Ideal.cmp .ogt mem thr))

/-- The spike of a membrane value: 1 where it exceeds the threshold. -/
def spk (v : EReal) : EReal := ind (Ideal.cmp .ogt (v - thr) zero)

/-! ## Matrices of rows -/

/-- An R × C matrix of extended reals, indexed as the arrays are. -/
abbrev Mat (R C : ℕ) : Type := (⟨2, ![R, C]⟩ : Shape).Idx → EReal

/-- The row of an index, at the literal extent. -/
def row {R C : ℕ} (i : (⟨2, ![R, C]⟩ : Shape).Idx) : Fin R := ⟨(i 0).val, idx2_lt0 i⟩
/-- The column of an index, at the literal extent. -/
def col {R C : ℕ} (i : (⟨2, ![R, C]⟩ : Shape).Idx) : Fin C := ⟨(i 1).val, idx2_lt1 i⟩

/-- One layer: entry (r, l) is `lif` of the old membrane there and the current ∑ₖ a (r, k) · W (k, l). -/
def layer {R K L : ℕ} (a : Mat R K) (W : Mat K L) (mem : Mat R L) : Mat R L :=
  fun i => lif (mem i) (∑ k : Fin K, a (ix2 (row i) k) * W (ix2 k (col i)))

/-- The spikes of a matrix of membrane values, entry by entry. -/
def spikes {R L : ℕ} (v : Mat R L) : Mat R L := fun i => spk (v i)

theorem layer_apply {R K L : ℕ} (a : Mat R K) (W : Mat K L) (mem : Mat R L) (p : Fin R) (q : Fin L) :
    layer a W mem (ix2 p q) = lif (mem (ix2 p q)) (∑ k : Fin K, a (ix2 p k) * W (ix2 k q)) := rfl

theorem spikes_apply {R L : ℕ} (v : Mat R L) (i : (⟨2, ![R, L]⟩ : Shape).Idx) : spikes v i = spk (v i) := rfl

/-! ## Packing G rows into one -/

/-- `P` is `Q` with every G consecutive rows (of width D) read as one row of width G · D: lane g·D + o of packed row r
    is entry o of row r·G + g. -/
def Rel {R G D : ℕ} (P : Mat R (G * D)) (Q : Mat (R * G) D) : Prop :=
  ∀ (r : Fin R) (g : Fin G) (o : Fin D), P (ix2 r (at_ g o)) = Q (ix2 (at_ r g) o)

/-- `B` is the block-diagonal matrix of G copies of `W`: entry (g'·K + i, g·L + o) is δ(g', g) · W (i, o). -/
def Kron {G K L : ℕ} (B : Mat (G * K) (G * L)) (W : Mat K L) : Prop :=
  ∀ (g' : Fin G) (i : Fin K) (g : Fin G) (o : Fin L),
    B (ix2 (at_ g' i) (at_ g o)) = (if g' = g then (1 : EReal) else 0) * W (ix2 i o)

/-- THE LAW that joins the two programs: the layer of packed rows against the block-diagonal weight is the packed layer
    of the rows.  In the sum over the G · K lanes, block g' ≠ g contributes ∑ᵢ a · (0 · w) = 0 and block g contributes
    ∑ᵢ a · (1 · w). -/
theorem rel_layer {R G K L : ℕ} {a : Mat R (G * K)} {a' : Mat (R * G) K} {mem : Mat R (G * L)} {mem' : Mat (R * G) L}
    {B : Mat (G * K) (G * L)} {W : Mat K L} (ha : Rel a a') (hm : Rel mem mem') (hB : Kron B W) :
    Rel (layer a B mem) (layer a' W mem') := by
  intro r g o
  rw [layer_apply, layer_apply, hm r g o]
  refine congrArg (lif _) ?_
  rw [sum_blocks G K, Finset.sum_eq_single g]
  · refine Finset.sum_congr rfl fun i _ => ?_
    rw [hB g i g o, if_pos rfl, one_mul, ha r g i]
  · intro g' _ hne
    refine Finset.sum_eq_zero fun i _ => ?_
    rw [hB g' i g o, if_neg hne, zero_mul, mul_zero]
  · intro h
    exact absurd (Finset.mem_univ g) h

/-- Spikes are taken entry by entry, so they pack. -/
theorem rel_spikes {R G D : ℕ} {v : Mat R (G * D)} {v' : Mat (R * G) D} (h : Rel v v') : Rel (spikes v) (spikes v') := by
  intro r g o
  rw [spikes_apply, spikes_apply, h r g o]

/-! ## A block of consecutive rows -/

/-- `blk` is the `n` rows of `arr` from row `off` on. -/
def Rows {n N C : ℕ} (off : ℕ) (hoff : off + n ≤ N) (blk : Mat n C) (arr : Mat N C) : Prop :=
  ∀ (p : Fin n) (q : Fin C), blk (ix2 p q) = arr (ix2 ⟨off + p.val, by have := p.isLt; omega⟩ q)

/-- A layer acts row by row: the layer of a block of rows (against the whole weight, however the block names it) is the
    block of the layer. -/
theorem rows_layer {n N K L : ℕ} {off : ℕ} {hoff : off + n ≤ N} {a : Mat n K} {A : Mat N K} {mem : Mat n L} {M : Mat N L}
    {w W : Mat K L} (hW : w = W) (ha : Rows off hoff a A) (hm : Rows off hoff mem M) :
    Rows off hoff (layer a w mem) (layer A W M) := by
  subst hW
  intro p q
  rw [layer_apply, layer_apply, hm p q]
  exact congrArg (lif _) (Finset.sum_congr rfl fun k _ => by rw [ha p k])

/-- So do spikes. -/
theorem rows_spikes {n N C : ℕ} {off : ℕ} {hoff : off + n ≤ N} {v : Mat n C} {V : Mat N C} (h : Rows off hoff v V) :
    Rows off hoff (spikes v) (spikes V) := by
  intro p q
  rw [spikes_apply, spikes_apply, h p q]

end Cert.Snn

end
-- ==== Proof.Body.lean ====
/-
  What the kernel body stores, as functions of the blocks it loads.  With x, m1, m2, m3 the blocks of packed rows and
  B1, B2, B3 the (whole) block-diagonal weights:
      the block of mem1' = layer x B1 m1
      the block of mem2' = layer (spikes (layer x B1 m1)) B2 m2
      the block of mem3' = layer (spikes (that)) B3 m3
      the block of the output spikes = spikes (that).
  Each `tpu.matmul` accumulates into a zero splat, so entry (p, q) is ∑ₖ l (p, k) · r (k, q); the comparison with the
  threshold, its zero-extension and conversion to a float, and the arithmetic around them are entry by entry.  The kernel
  converts the one-bit comparison through a 32-bit zero-extension read as a signed integer: still 0 or 1.
-/
import proofs.«153012_j17188459118719_2_alg».proof.Proof.Gen.KernelIdeal.Skeleton
import proofs.«153012_j17188459118719_2_alg».proof.Proof.Spec
import Idealize.ShloMosaic.Lib.Pipeline.Value
import Idealize.ShloMosaic.Lib.ValueIdx
import Idealize.ShloMosaic.PureOps.Ideal.Laws

noncomputable section

namespace Cert.Snn.Body

open Cert.KernelIdeal Cert.KernelIdeal.Gen Idealize.ShloMosaic Idealize.ShloMosaic.ValueIdx Cert.Snn

/-! ## Scalars -/

/-- A one-bit word, zero-extended to 32 bits and read as a signed integer, is still 0 or 1. -/
theorem sitofp_bit (b : BitVec 1) : FloatOps.sitofp (F := Ideal) .f32 (b.setWidth 32) = ind b := by
  have h : (b.setWidth 32).toInt = ((b.toNat : ℕ) : ℤ) := by
    rcases BitVec.eq_zero_or_eq_one b with h | h <;> subst h <;> decide
  show (((b.setWidth 32).toInt : ℝ) : EReal) = ((b.toNat : ℝ) : EReal)
  rw [h, Int.cast_natCast]

/-- The membrane arithmetic at one entry is `lif`. -/
theorem membrane_at {s : Shape} (mem cur : FVec Ideal s .f32) (j : s.Idx) :
    mulf (addf (mulf (broadcast s (Scalar.ofBits (F := Ideal) .f32 0x3F67A36D#32)) mem) cur)
      (subf (broadcast s (Scalar.ofBits (F := Ideal) .f32 0x3F800000#32))
        (sitofp .f32 (extui 32 (cmpf .ogt mem (broadcast s (Scalar.ofBits (F := Ideal) .f32 0x41700000#32))) natLt_1_32))) j
      = lif (mem j) (cur j) := by
  show (Scalar.ofBits (F := Ideal) .f32 0x3F67A36D#32 * mem j + cur j)
      * (Scalar.ofBits (F := Ideal) .f32 0x3F800000#32
          - FloatOps.sitofp (F := Ideal) .f32 ((FloatOps.cmpf .ogt (mem j) (Scalar.ofBits (F := Ideal) .f32 0x41700000#32)).setWidth 32)) = _
  rw [sitofp_bit]
  rfl

/-- The spikes of a block of membrane values, as the kernel computes them. -/
theorem spikes_eq {R C : ℕ} (v : Mat R C) :
    (sitofp .f32 (extui 32 (cmpf .ogt (subf v (broadcast (⟨2, ![R, C]⟩ : Shape) (Scalar.ofBits (F := Ideal) .f32 0x41700000#32)))
      (broadcast (⟨2, ![R, C]⟩ : Shape) (Scalar.ofBits (F := Ideal) .f32 0x00000000#32))) natLt_1_32)
        : FVec Ideal (⟨2, ![R, C]⟩ : Shape) .f32) = spikes v := by
  funext j
  show FloatOps.sitofp (F := Ideal) .f32 ((FloatOps.cmpf .ogt (v j - Scalar.ofBits (F := Ideal) .f32 0x41700000#32)
      (Scalar.ofBits (F := Ideal) .f32 0x00000000#32)).setWidth 32) = _
  rw [sitofp_bit]
  rfl

/-! ## The three contractions at an entry -/

/-- A `tpu.matmul` of a [1024, 256] block with a [256, 256] block into the zero splat, read at (p, q): ∑ₖ l (p, k) · r (k, q).
    The record contracts the left operand's axis 1 with the right's axis 0, no batch axis, so the operand indices at output
    (p, q) and contraction coordinate k are (p, k) and (k, q). -/
theorem matmul1_at (l : FVec Ideal S1024x256 .f32) (r : FVec Ideal S256x256 .f32) (p : Fin 1024) (q : Fin 256) :
    matmul dot_S1024x256_S256x256_S1024x256_1_0_0_1_n_n (some .fp32) l r (constant (F := Ideal) S1024x256 .f32 0x00000000#32) (ix2 p q)
      = ∑ k : Fin 256, l (ix2 p k) * r (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have l0 : ∀ kk : dot_S1024x256_S256x256_S1024x256_1_0_0_1_n_n.contr.Idx, (dot_S1024x256_S256x256_S1024x256_1_0_0_1_n_n.lhsIdx (ix2 p q) kk 0).val = p.val := fun kk => by
    unfold DotDims.lhsIdx
    rw [dif_neg (show ¬(0 : Fin S1024x256.rank) ∈ dot_S1024x256_S256x256_S1024x256_1_0_0_1_n_n.lhsBatch by decide),
      dif_pos (show (0 : Fin S1024x256.rank) ∈ dot_S1024x256_S256x256_S1024x256_1_0_0_1_n_n.lhsNonContracting by decide)]
    rfl
  have r1 : ∀ kk : dot_S1024x256_S256x256_S1024x256_1_0_0_1_n_n.contr.Idx, (dot_S1024x256_S256x256_S1024x256_1_0_0_1_n_n.rhsIdx (ix2 p q) kk 1).val = q.val := fun kk => by
    unfold DotDims.rhsIdx
    rw [dif_neg (show ¬(1 : Fin S256x256.rank) ∈ dot_S1024x256_S256x256_S1024x256_1_0_0_1_n_n.rhsBatch by decide),
      dif_pos (show (1 : Fin S256x256.rank) ∈ dot_S1024x256_S256x256_S1024x256_1_0_0_1_n_n.rhsNonContracting by decide)]
    rfl
  have el : dot_S1024x256_S256x256_S1024x256_1_0_0_1_n_n.lhsIdx (ix2 p q) ((contrEquiv1 dot_S1024x256_S256x256_S1024x256_1_0_0_1_n_n 256 rfl rfl).symm k) = ix2 p k :=
    funext fun a => Fin.ext (by
      match a with
      | ⟨0, _⟩ => exact l0 _
      | ⟨1, _⟩ => exact (dot_S1024x256_S256x256_S1024x256_1_0_0_1_n_n.lhsIdx_val_of_single rfl _ _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun a => Fin.ext (by
      match a with
      | ⟨0, _⟩ => exact (dot_S1024x256_S256x256_S1024x256_1_0_0_1_n_n.rhsIdx_val_of_single rfl _ _).trans hk
      | ⟨1, _⟩ => exact r1 _)
  rw [el, er]

/-- A `tpu.matmul` of a [1024, 256] block with a [256, 384] block into the zero splat, read at (p, q): ∑ₖ l (p, k) · r (k, q).
    The record contracts the left operand's axis 1 with the right's axis 0, no batch axis, so the operand indices at output
    (p, q) and contraction coordinate k are (p, k) and (k, q). -/
theorem matmul2_at (l : FVec Ideal S1024x256 .f32) (r : FVec Ideal S256x384 .f32) (p : Fin 1024) (q : Fin 384) :
    matmul dot_S1024x256_S256x384_S1024x384_1_0_0_1_n_n (some .fp32) l r (constant (F := Ideal) S1024x384 .f32 0x00000000#32) (ix2 p q)
      = ∑ k : Fin 256, l (ix2 p k) * r (ix2 k q) := by
  simp only [matmul]
  rw [Ideal.matmul_constant_zero_apply, ← Equiv.sum_comp (contrEquiv1 dot_S1024x256_S256x384_S1024x384_1_0_0_1_n_n 256 rfl rfl).symm]
  refine Finset.sum_congr rfl fun k _ => ?_
  have hk := contrEquiv1_symm_val dot_S1024x256_S256x384_S1024x384_1_0_0_1_n_n 256 rfl rfl k
  have l0 : ∀ kk : dot_S1024x256_S256x384_S1024x384_1_0_0_1_n_n.contr.Idx, (dot_S1024x256_S256x384_S1024x384_1_0_0_1_n_n.lhsIdx (ix2 p q) kk 0).val = p.val := fun kk => by
    unfold DotDims.lhsIdx
    rw [dif_neg (show ¬(0 : Fin S1024x256.rank) ∈ dot_S1024x256_S256x384_S1024x384_1_0_0_1_n_n.lhsBatch by decide),
      dif_pos (show (0 : Fin S1024x256.rank) ∈ dot_S1024x256_S256x384_S1024x384_1_0_0_1_n_n.lhsNonContracting by decide)]
    rfl
  have r1 : ∀ kk : dot_S1024x256_S256x384_S1024x384_1_0_0_1_n_n.contr.Idx, (dot_S1024x256_S256x384_S1024x384_1_0_0_1_n_n.rhsIdx (ix2 p q) kk 1).val = q.val := fun kk => by
    unfold DotDims.rhsIdx
    rw [dif_neg (show ¬(1 : Fin S256x384.rank) ∈ dot_S1024x256_S256x384_S1024x384_1_0_0_1_n_n.rhsBatch by decide),
      dif_pos (show (1 : Fin S256x384.rank) ∈ dot_S1024x256_S256x384_S1024x384_1_0_0_1_n_n.rhsNonContracting by decide)]
    rfl
  have el : dot_S1024x256_S256x384_S1024x384_1_0_0_1_n_n.lhsIdx (ix2 p q) ((contrEquiv1 dot_S1024x256_S256x384_S1024x384_1_0_0_1_n_n 256 rfl rfl).symm k) = ix2 p k :=
    funext fun a => Fin.ext (by
      match a with
      | ⟨0, _⟩ => exact l0 _
      | ⟨1, _⟩ => exact (dot_S1024x256_S256x384_S1024x384_1_0_0_1_n_n.lhsIdx_val_of_single rfl _ _).trans hk)
  have er : dot_S1024x256_S256x384_S1024x384_1_0_0_1_n_n.rhsIdx (ix2 p q) ((contrEquiv1 dot_S1024x256_S256x384_S1024x384_1_0_0_1_n_n 256 rfl rfl).symm k) = ix2 k q :=
    funext fun a => Fin.ext (by
      match a with
      | ⟨0, _⟩ => exact (dot_S1024x256_S256x384_S1024x384_1_0_0_1_n_n.rhsIdx_val_of_single rfl _ _).trans hk
      | ⟨1, _⟩ => exact r1 _)
  rw [el, er]

/-- A `tpu.matmul` of a [1024, 384] block with a [384, 256] block into the zero splat, read at (p, q): ∑ₖ l (p, k) · r (k, q).
    The record contracts the left operand's axis 1 with the right's axis 0, no batch axis, so the operand indices at output
    (p, q) and contraction coordinate k are (p, k) and (k, q). -/
theorem matmul3_at (l : FVec Ideal S1024x384 .f32) (r : FVec Ideal S384x256 .f32) (p : Fin 1024) (q : Fin 256) :
    matmul dot_S1024x384_S384x256_S1024x256_1_0_0_1_n_n (some .fp32) l r (constant (F := Ideal) S1024x256 .f32 0x00000000#32) (ix2 p q)
      = ∑ k : Fin 384, l (ix2 p k) * r (ix2 k q) := by
  simp only [matmul]
  rw [Ideal.matmul_constant_zero_apply, ← Equiv.sum_comp (contrEquiv1 dot_S1024x384_S384x256_S1024x256_1_0_0_1_n_n 384 rfl rfl).symm]
  refine Finset.sum_congr rfl fun k _ => ?_
  have hk := contrEquiv1_symm_val dot_S1024x384_S384x256_S1024x256_1_0_0_1_n_n 384 rfl rfl k
  have l0 : ∀ kk : dot_S1024x384_S384x256_S1024x256_1_0_0_1_n_n.contr.Idx, (dot_S1024x384_S384x256_S1024x256_1_0_0_1_n_n.lhsIdx (ix2 p q) kk 0).val = p.val := fun kk => by
    unfold DotDims.lhsIdx
    rw [dif_neg (show ¬(0 : Fin S1024x384.rank) ∈ dot_S1024x384_S384x256_S1024x256_1_0_0_1_n_n.lhsBatch by decide),
      dif_pos (show (0 : Fin S1024x384.rank) ∈ dot_S1024x384_S384x256_S1024x256_1_0_0_1_n_n.lhsNonContracting by decide)]
    rfl
  have r1 : ∀ kk : dot_S1024x384_S384x256_S1024x256_1_0_0_1_n_n.contr.Idx, (dot_S1024x384_S384x256_S1024x256_1_0_0_1_n_n.rhsIdx (ix2 p q) kk 1).val = q.val := fun kk => by
    unfold DotDims.rhsIdx
    rw [dif_neg (show ¬(1 : Fin S384x256.rank) ∈ dot_S1024x384_S384x256_S1024x256_1_0_0_1_n_n.rhsBatch by decide),
      dif_pos (show (1 : Fin S384x256.rank) ∈ dot_S1024x384_S384x256_S1024x256_1_0_0_1_n_n.rhsNonContracting by decide)]
    rfl
  have el : dot_S1024x384_S384x256_S1024x256_1_0_0_1_n_n.lhsIdx (ix2 p q) ((contrEquiv1 dot_S1024x384_S384x256_S1024x256_1_0_0_1_n_n 384 rfl rfl).symm k) = ix2 p k :=
    funext fun a => Fin.ext (by
      match a with
      | ⟨0, _⟩ => exact l0 _
      | ⟨1, _⟩ => exact (dot_S1024x384_S384x256_S1024x256_1_0_0_1_n_n.lhsIdx_val_of_single rfl _ _).trans hk)
  have er : dot_S1024x384_S384x256_S1024x256_1_0_0_1_n_n.rhsIdx (ix2 p q) ((contrEquiv1 dot_S1024x384_S384x256_S1024x256_1_0_0_1_n_n 384 rfl rfl).symm k) = ix2 k q :=
    funext fun a => Fin.ext (by
      match a with
      | ⟨0, _⟩ => exact (dot_S1024x384_S384x256_S1024x256_1_0_0_1_n_n.rhsIdx_val_of_single rfl _ _).trans hk
      | ⟨1, _⟩ => exact r1 _)
  rw [el, er]

/-! ## A block's membrane update is the layer of its rows -/

/-- The membrane update of a block whose current is the matmul of the activations `a` with the weight block `w`:
    the layer of the block's rows. -/
theorem layer1_eq (a : FVec Ideal S1024x256 .f32) (mem : FVec Ideal S1024x256 .f32) (w : FVec Ideal S256x256 .f32) :
    mulf (addf (mulf (broadcast S1024x256 (Scalar.ofBits (F := Ideal) .f32 0x3F67A36D#32)) mem)
        (matmul dot_S1024x256_S256x256_S1024x256_1_0_0_1_n_n (some .fp32) a w (constant (F := Ideal) S1024x256 .f32 0x00000000#32)))
      (subf (broadcast S1024x256 (Scalar.ofBits (F := Ideal) .f32 0x3F800000#32))
        (sitofp .f32 (extui 32 (cmpf .ogt mem (broadcast S1024x256 (Scalar.ofBits (F := Ideal) .f32 0x41700000#32))) natLt_1_32)))
      = layer a w mem := by
  funext j
  obtain ⟨p, q, rfl⟩ : ∃ (p : Fin 1024) (q : Fin 256), j = ix2 p q := ⟨j 0, j 1, eq_ix2 j⟩
  rw [layer_apply, ← matmul1_at a w p q]
  exact membrane_at _ _ _

/-- The membrane update of a block whose current is the matmul of the activations `a` with the weight block `w`:
    the layer of the block's rows. -/
theorem layer2_eq (a : FVec Ideal S1024x256 .f32) (mem : FVec Ideal S1024x384 .f32) (w : FVec Ideal S256x384 .f32) :
    mulf (addf (mulf (broadcast S1024x384 (Scalar.ofBits (F := Ideal) .f32 0x3F67A36D#32)) mem)
        (matmul dot_S1024x256_S256x384_S1024x384_1_0_0_1_n_n (some .fp32) a w (constant (F := Ideal) S1024x384 .f32 0x00000000#32)))
      (subf (broadcast S1024x384 (Scalar.ofBits (F := Ideal) .f32 0x3F800000#32))
        (sitofp .f32 (extui 32 (cmpf .ogt mem (broadcast S1024x384 (Scalar.ofBits (F := Ideal) .f32 0x41700000#32))) natLt_1_32)))
      = layer a w mem := by
  funext j
  obtain ⟨p, q, rfl⟩ : ∃ (p : Fin 1024) (q : Fin 384), j = ix2 p q := ⟨j 0, j 1, eq_ix2 j⟩
  rw [layer_apply, ← matmul2_at a w p q]
  exact membrane_at _ _ _

/-- The membrane update of a block whose current is the matmul of the activations `a` with the weight block `w`:
    the layer of the block's rows. -/
theorem layer3_eq (a : FVec Ideal S1024x384 .f32) (mem : FVec Ideal S1024x256 .f32) (w : FVec Ideal S384x256 .f32) :
    mulf (addf (mulf (broadcast S1024x256 (Scalar.ofBits (F := Ideal) .f32 0x3F67A36D#32)) mem)
        (matmul dot_S1024x384_S384x256_S1024x256_1_0_0_1_n_n (some .fp32) a w (constant (F := Ideal) S1024x256 .f32 0x00000000#32)))
      (subf (broadcast S1024x256 (Scalar.ofBits (F := Ideal) .f32 0x3F800000#32))
        (sitofp .f32 (extui 32 (cmpf .ogt mem (broadcast S1024x256 (Scalar.ofBits (F := Ideal) .f32 0x41700000#32))) natLt_1_32)))
      = layer a w mem := by
  funext j
  obtain ⟨p, q, rfl⟩ : ∃ (p : Fin 1024) (q : Fin 256), j = ix2 p q := ⟨j 0, j 1, eq_ix2 j⟩
  rw [layer_apply, ← matmul3_at a w p q]
  exact membrane_at _ _ _

/-! ## The four stores' payloads -/

/-- The block of the first membranes. -/
theorem pay_mem1 (x0 x1 : Vec Ideal S1024x256 .f32) (x4 : Vec Ideal S256x256 .f32) :
    k0_pay4 x0 x1 x4 = layer x0 x4 x1 := by
  unfold k0_pay4
  simp only [shapeCast_self]
  exact layer1_eq x0 x1 x4

/-- The block of the second membranes. -/
theorem pay_mem2 (x0 x1 : Vec Ideal S1024x256 .f32) (x2 : Vec Ideal S1024x384 .f32) (x4 : Vec Ideal S256x256 .f32)
    (x5 : Vec Ideal S256x384 .f32) :
    k0_pay1 (k0_pay6 x2) (k0_pay7 x0 x1 x4 x2 x5) (Scalar.ofBits (F := Ideal) .f32 0x3F800000#32)
      = layer (spikes (k0_pay4 x0 x1 x4)) x5 x2 := by
  unfold k0_pay1 k0_pay6 k0_pay7 k0_pay5
  simp only [shapeCast_self]
  rw [spikes_eq (k0_pay4 x0 x1 x4)]
  exact layer2_eq _ x2 x5

/-- The block of the third membranes. -/
theorem pay_mem3 (v32 v35 : FVec Ideal S1024x384 .f32) (x3 : Vec Ideal S1024x256 .f32) (x6 : Vec Ideal S384x256 .f32) :
    k0_pay2 v32 v35 (Scalar.ofBits (F := Ideal) .f32 0x3F800000#32) x3 x6
      = layer (spikes (k0_pay1 v32 v35 (Scalar.ofBits (F := Ideal) .f32 0x3F800000#32))) x6 x3 := by
  unfold k0_pay2
  simp only [shapeCast_self]
  rw [spikes_eq (k0_pay1 v32 v35 (Scalar.ofBits (F := Ideal) .f32 0x3F800000#32))]
  exact layer3_eq _ x3 x6

/-- The block of the output spikes. -/
theorem pay_spk3 (v32 v35 : FVec Ideal S1024x384 .f32) (x3 : Vec Ideal S1024x256 .f32) (x6 : Vec Ideal S384x256 .f32) :
    k0_pay3 v32 v35 (Scalar.ofBits (F := Ideal) .f32 0x3F800000#32) x3 x6
      = spikes (k0_pay2 v32 v35 (Scalar.ofBits (F := Ideal) .f32 0x3F800000#32) x3 x6) := by
  unfold k0_pay3
  exact spikes_eq _

end Cert.Snn.Body

end
-- ==== Proof.Blocks.lean ====
/-
  From blocks to arrays.  The region has sixteen grid points; at point t every row window (the packed input x, the three
  packed membranes, and the four outputs) holds rows 1024·t … 1024·t + 1023 of its array, and every weight window holds
  its whole array.  A layer acts row by row (`rows_layer`), so what point t writes back through an output window is
  block t of ONE whole-array function of the arrays the region finds:
      mem1K = layer x̂ B1 m̂1,  mem2K = layer (spikes mem1K) B2 m̂2,  mem3K = layer (spikes mem2K) B3 m̂3,  spk3K = spikes mem3K
  (x̂, m̂ the packed arrays, B the block-diagonal weights).  The sixteen blocks tile each output array, so after the region
  each output array IS that function.
-/
import proofs.«153012_j17188459118719_2_alg».proof.Proof.Gen.KernelIdeal.Frame
import proofs.«153012_j17188459118719_2_alg».proof.Proof.Body
import proofs.«153012_j17188459118719_2_alg».proof.Proof.Spec
import Idealize.ShloMosaic.Lib.Pipeline.Value

set_option maxRecDepth 16384

noncomputable section

namespace Cert.Snn.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.Snn Cert.Snn.Body

variable (m : (ℓ : Loc nD τ sig) → Buf (Elt Ideal) ℓ)

theorem hz : (![0, 0] : Fin 2 → Nat) = fun _ => 0 := funext fun a => by fin_cases a <;> rfl

/-- The grid has sixteen points. -/
theorem t_lt (t : Fin cfg0.N) : t.val < 16 := Nat.lt_of_lt_of_eq t.isLt N_0

/-- Block t of 1024 rows lies inside the 16384 rows. -/
theorem off_le (t : Fin cfg0.N) : t.val * 1024 + 1024 ≤ 16384 := by have := t_lt t; omega

/-! ## The whole-array functions -/

/-- The packed first membranes after the step. -/
def mem1K (c : Dev nD) : Mat 16384 256 := layer (V m c main_v0) (V m c main_v11) (V m c main_v1)
/-- The packed second membranes. -/
def mem2K (c : Dev nD) : Mat 16384 384 := layer (spikes (mem1K m c)) (V m c main_v13) (V m c main_v2)
/-- The packed third membranes. -/
def mem3K (c : Dev nD) : Mat 16384 256 := layer (spikes (mem2K m c)) (V m c main_v15) (V m c main_v3)
/-- The packed output spikes. -/
def spk3K (c : Dev nD) : Mat 16384 256 := spikes (mem3K m c)

/-! ## The input windows' blocks -/

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Input window 0's block at point t is rows 1024·t … 1024·t + 1023 of its array. -/
theorem rows_in0 (c : Dev nD) (t : Fin cfg0.N) :
    Rows (n := 1024) (N := 16384) (C := 256) (t.val * 1024) (off_le t) (iblk m c 0 t) (V m c main_v0) := by
  intro p q
  show V m c main_v0 (((cfg0.win 0).blk t).view.emb (ix2 p q)) = V m c main_v0 (ix2 ⟨t.val * 1024 + p.val, _⟩ q)
  refine congrArg _ (funext fun a => Fin.ext ?_)
  obtain ⟨e0, e1⟩ := index0 t
  match a with
  | ⟨0, _⟩ => show win0_0.index t (0 : Fin 2) * 1024 + 1 * p.val = t.val * 1024 + p.val; rw [e0]; omega
  | ⟨1, _⟩ => show win0_0.index t (1 : Fin 2) * 256 + 1 * q.val = q.val; rw [e1]; omega

theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Input window 1's block at point t is rows 1024·t … 1024·t + 1023 of its array. -/
theorem rows_in1 (c : Dev nD) (t : Fin cfg0.N) :
    Rows (n := 1024) (N := 16384) (C := 256) (t.val * 1024) (off_le t) (iblk m c 1 t) (V m c main_v1) := by
  intro p q
  show V m c main_v1 (((cfg0.win 1).blk t).view.emb (ix2 p q)) = V m c main_v1 (ix2 ⟨t.val * 1024 + p.val, _⟩ q)
  refine congrArg _ (funext fun a => Fin.ext ?_)
  obtain ⟨e0, e1⟩ := index1 t
  match a with
  | ⟨0, _⟩ => show win0_1.index t (0 : Fin 2) * 1024 + 1 * p.val = t.val * 1024 + p.val; rw [e0]; omega
  | ⟨1, _⟩ => show win0_1.index t (1 : Fin 2) * 256 + 1 * q.val = q.val; rw [e1]; omega

theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Input window 2's block at point t is rows 1024·t … 1024·t + 1023 of its array. -/
theorem rows_in2 (c : Dev nD) (t : Fin cfg0.N) :
    Rows (n := 1024) (N := 16384) (C := 384) (t.val * 1024) (off_le t) (iblk m c 2 t) (V m c main_v2) := by
  intro p q
  show V m c main_v2 (((cfg0.win 2).blk t).view.emb (ix2 p q)) = V m c main_v2 (ix2 ⟨t.val * 1024 + p.val, _⟩ q)
  refine congrArg _ (funext fun a => Fin.ext ?_)
  obtain ⟨e0, e1⟩ := index2 t
  match a with
  | ⟨0, _⟩ => show win0_2.index t (0 : Fin 2) * 1024 + 1 * p.val = t.val * 1024 + p.val; rw [e0]; omega
  | ⟨1, _⟩ => show win0_2.index t (1 : Fin 2) * 384 + 1 * q.val = q.val; rw [e1]; omega

theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Input window 3's block at point t is rows 1024·t … 1024·t + 1023 of its array. -/
theorem rows_in3 (c : Dev nD) (t : Fin cfg0.N) :
    Rows (n := 1024) (N := 16384) (C := 256) (t.val * 1024) (off_le t) (iblk m c 3 t) (V m c main_v3) := by
  intro p q
  show V m c main_v3 (((cfg0.win 3).blk t).view.emb (ix2 p q)) = V m c main_v3 (ix2 ⟨t.val * 1024 + p.val, _⟩ q)
  refine congrArg _ (funext fun a => Fin.ext ?_)
  obtain ⟨e0, e1⟩ := index3 t
  match a with
  | ⟨0, _⟩ => show win0_3.index t (0 : Fin 2) * 1024 + 1 * p.val = t.val * 1024 + p.val; rw [e0]; omega
  | ⟨1, _⟩ => show win0_3.index t (1 : Fin 2) * 256 + 1 * q.val = q.val; rw [e1]; omega

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Input window 4's block at every point is its whole array (a weight, fetched once). -/
theorem whole_in4 (c : Dev nD) (t : Fin cfg0.N) : (iblk m c 4 t : Mat 256 256) = V m c main_v11 := by
  funext y
  show V m c main_v11 (((cfg0.win 4).blk t).view.emb y) = V m c main_v11 y
  refine congrArg _ (funext fun a => Fin.ext ?_)
  obtain ⟨e0, e1⟩ := index4 t
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Input window 5's block at every point is its whole array (a weight, fetched once). -/
theorem whole_in5 (c : Dev nD) (t : Fin cfg0.N) : (iblk m c 5 t : Mat 256 384) = V m c main_v13 := by
  funext y
  show V m c main_v13 (((cfg0.win 5).blk t).view.emb y) = V m c main_v13 y
  refine congrArg _ (funext fun a => Fin.ext ?_)
  obtain ⟨e0, e1⟩ := index5 t
  match a with
  | ⟨0, _⟩ => show win0_5.index t (0 : Fin 2) * 256 + 1 * (y 0).val = (y 0).val; rw [e0]; omega
  | ⟨1, _⟩ => show win0_5.index t (1 : Fin 2) * 384 + 1 * (y 1).val = (y 1).val; rw [e1]; omega

theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Input window 6's block at every point is its whole array (a weight, fetched once). -/
theorem whole_in6 (c : Dev nD) (t : Fin cfg0.N) : (iblk m c 6 t : Mat 384 256) = V m c main_v15 := by
  funext y
  show V m c main_v15 (((cfg0.win 6).blk t).view.emb y) = V m c main_v15 y
  refine congrArg _ (funext fun a => Fin.ext ?_)
  obtain ⟨e0, e1⟩ := index6 t
  match a with
  | ⟨0, _⟩ => show win0_6.index t (0 : Fin 2) * 384 + 1 * (y 0).val = (y 0).val; rw [e0]; omega
  | ⟨1, _⟩ => show win0_6.index t (1 : Fin 2) * 256 + 1 * (y 1).val = (y 1).val; rw [e1]; omega

/-! ## The blocks of the three layers, as rows of the whole-array functions -/

theorem rows_mem1 (c : Dev nD) (t : Fin cfg0.N) :
    Rows (t.val * 1024) (off_le t) (k0_pay4 (iblk m c 0 t) (iblk m c 1 t) (iblk m c 4 t)) (mem1K m c) := by
  refine (pay_mem1 _ _ _).symm ▸ ?_
  exact rows_layer (whole_in4 m c t) (rows_in0 m c t) (rows_in1 m c t)

theorem rows_mem2 (c : Dev nD) (t : Fin cfg0.N) :
    Rows (t.val * 1024) (off_le t)
      (k0_pay1 (k0_pay6 (iblk m c 2 t)) (k0_pay7 (iblk m c 0 t) (iblk m c 1 t) (iblk m c 4 t) (iblk m c 2 t) (iblk m c 5 t)) (Scalar.ofBits (F := Ideal) .f32 0x3F800000#32))
      (mem2K m c) := by
  refine (pay_mem2 _ _ _ _ _).symm ▸ ?_
  exact rows_layer (whole_in5 m c t) (rows_spikes (rows_mem1 m c t)) (rows_in2 m c t)

theorem rows_mem3 (c : Dev nD) (t : Fin cfg0.N) :
    Rows (t.val * 1024) (off_le t)
      (k0_pay2 (k0_pay6 (iblk m c 2 t)) (k0_pay7 (iblk m c 0 t) (iblk m c 1 t) (iblk m c 4 t) (iblk m c 2 t) (iblk m c 5 t)) (Scalar.ofBits (F := Ideal) .f32 0x3F800000#32)
        (iblk m c 3 t) (iblk m c 6 t))
      (mem3K m c) := by
  refine (pay_mem3 _ _ _ _).symm ▸ ?_
  exact rows_layer (whole_in6 m c t) (rows_spikes (rows_mem2 m c t)) (rows_in3 m c t)

theorem rows_spk3 (c : Dev nD) (t : Fin cfg0.N) :
    Rows (t.val * 1024) (off_le t)
      (k0_pay3 (k0_pay6 (iblk m c 2 t)) (k0_pay7 (iblk m c 0 t) (iblk m c 1 t) (iblk m c 4 t) (iblk m c 2 t) (iblk m c 5 t)) (Scalar.ofBits (F := Ideal) .f32 0x3F800000#32)
        (iblk m c 3 t) (iblk m c 6 t))
      (spk3K m c) := by
  refine (pay_spk3 _ _ _ _).symm ▸ ?_
  exact rows_spikes (rows_mem3 m c t)

/-! ## Output window 8: the first membranes -/

theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Entry (p, q) of output window 8's block at point t sits at (1024·t + p, q) of its array. -/
theorem emb8 (t : Fin cfg0.N) (p : Fin 1024) (q : Fin 256) :
    ((cfg0.win 8).blk t).view.emb (ix2 p q)
      = (ix2 (⟨t.val * 1024 + p.val, by have := t_lt t; have := p.isLt; omega⟩ : Fin 16384) q : S16384x256.Idx) := by
  refine funext fun a => Fin.ext ?_
  obtain ⟨e0, e1⟩ := index8 t
  match a with
  | ⟨0, _⟩ => show win0_8.index t (0 : Fin 2) * 1024 + 1 * p.val = t.val * 1024 + p.val; rw [e0]; omega
  | ⟨1, _⟩ => show win0_8.index t (1 : Fin 2) * 256 + 1 * q.val = q.val; rw [e1]; omega

/-- WHAT POINT t WRITES BACK through window 8 is block t of mem1K. -/
theorem flushed8 (c : Dev nD) (t : Fin cfg0.N) :
    (dats m 0 c).flushed 8 t = ((cfg0.win 8).blk t).view.read (Elt Ideal) (mem1K m c) := by
  show (cfg0.win 8).cut (grid0.coords t) ((dats m 0 c).after 8 t) = _
  rw [after0_8]
  unfold out0_8
  rw [View.canon_unit_zero hz]
  simp only [View.ld_unit_zero (S := S1024x256) hz, View.ld_unit_zero (S := S1024x384) hz, View.ld_unit_zero (S := S256x256) hz,
    View.ld_unit_zero (S := S256x384) hz, View.ld_unit_zero (S := S384x256) hz]
  funext y
  obtain ⟨p, q, rfl⟩ : ∃ (p : Fin 1024) (q : Fin 256), y = ix2 p q := ⟨y 0, y 1, eq_ix2 y⟩
  show _ = mem1K m c (((cfg0.win 8).blk t).view.emb (ix2 p q))
  refine Eq.trans ?_ (congrArg (mem1K m c) (emb8 t p q)).symm
  exact rows_mem1 m c t p q

/-- An index of the array is in point t's block iff each coordinate is in the block's range on its axis. -/
theorem mem_blk8 (t : Fin cfg0.N) (i : S16384x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v16_1).slice (win0_8.rect t)).set ↔ _
  rw [View.set_slice_whole, Rect.mem_set_unit]
  exact Iff.rfl

/-- The sixteen blocks of 1024 rows tile the array: row r is in block r / 1024. -/
theorem cover8 (i : S16384x256.Idx) : ∃ t : Fin cfg0.N, (cfg0.win 8).flush t = true ∧ i ∈ ((cfg0.win 8).blk t).view.set := by
  have hi0 : (i 0).val < 16384 := (i 0).isLt
  have hi1 : (i 1).val < 256 := (i 1).isLt
  obtain ⟨t, ht⟩ : ∃ t : Fin cfg0.N, t.val = (i 0).val / 1024 :=
    ⟨⟨(i 0).val / 1024, by rw [show cfg0.N = 16 from N_0]; omega⟩, rfl⟩
  refine ⟨t, flush0_8 t, ?_⟩
  rw [mem_blk8]
  obtain ⟨e0, e1⟩ := index8 t
  intro a
  match a with
  | ⟨0, _⟩ =>
    show win0_8.index t (0 : Fin 2) * 1024 ≤ (i 0).val ∧ (i 0).val < win0_8.index t (0 : Fin 2) * 1024 + 1024
    rw [e0, ht]; omega
  | ⟨1, _⟩ =>
    show win0_8.index t (1 : Fin 2) * 256 ≤ (i 1).val ∧ (i 1).val < win0_8.index t (1 : Fin 2) * 256 + 256
    rw [e1]; omega

/-- THE ARRAY of window 8 after the region. -/
theorem final8 (c : Dev nD) : (dats m 0 c).arrAt 8 cfg0.N = mem1K m c :=
  (dats m 0 c).arrAt_eq_of_cover 8 (mem1K m c) (fun t _ => flushed8 m c t) cover8

/-! ## Output window 9: the second membranes -/

theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Entry (p, q) of output window 9's block at point t sits at (1024·t + p, q) of its array. -/
theorem emb9 (t : Fin cfg0.N) (p : Fin 1024) (q : Fin 384) :
    ((cfg0.win 9).blk t).view.emb (ix2 p q)
      = (ix2 (⟨t.val * 1024 + p.val, by have := t_lt t; have := p.isLt; omega⟩ : Fin 16384) q : S16384x384.Idx) := by
  refine funext fun a => Fin.ext ?_
  obtain ⟨e0, e1⟩ := index9 t
  match a with
  | ⟨0, _⟩ => show win0_9.index t (0 : Fin 2) * 1024 + 1 * p.val = t.val * 1024 + p.val; rw [e0]; omega
  | ⟨1, _⟩ => show win0_9.index t (1 : Fin 2) * 384 + 1 * q.val = q.val; rw [e1]; omega

/-- WHAT POINT t WRITES BACK through window 9 is block t of mem2K. -/
theorem flushed9 (c : Dev nD) (t : Fin cfg0.N) :
    (dats m 0 c).flushed 9 t = ((cfg0.win 9).blk t).view.read (Elt Ideal) (mem2K m c) := by
  show (cfg0.win 9).cut (grid0.coords t) ((dats m 0 c).after 9 t) = _
  rw [after0_9]
  unfold out0_9
  rw [View.canon_unit_zero hz]
  simp only [View.ld_unit_zero (S := S1024x256) hz, View.ld_unit_zero (S := S1024x384) hz, View.ld_unit_zero (S := S256x256) hz,
    View.ld_unit_zero (S := S256x384) hz, View.ld_unit_zero (S := S384x256) hz]
  funext y
  obtain ⟨p, q, rfl⟩ : ∃ (p : Fin 1024) (q : Fin 384), y = ix2 p q := ⟨y 0, y 1, eq_ix2 y⟩
  show _ = mem2K m c (((cfg0.win 9).blk t).view.emb (ix2 p q))
  refine Eq.trans ?_ (congrArg (mem2K m c) (emb9 t p q)).symm
  exact rows_mem2 m c t p q

/-- An index of the array is in point t's block iff each coordinate is in the block's range on its axis. -/
theorem mem_blk9 (t : Fin cfg0.N) (i : S16384x384.Idx) :
    i ∈ ((cfg0.win 9).blk t).view.set ↔ ∀ a : Fin 2, win0_9.index t a * S1024x384.size a ≤ (i a).val
      ∧ (i a).val < win0_9.index t a * S1024x384.size a + S1024x384.size a := by
  show i ∈ ((View.whole main_v16_2).slice (win0_9.rect t)).set ↔ _
  rw [View.set_slice_whole, Rect.mem_set_unit]
  exact Iff.rfl

/-- The sixteen blocks of 1024 rows tile the array: row r is in block r / 1024. -/
theorem cover9 (i : S16384x384.Idx) : ∃ t : Fin cfg0.N, (cfg0.win 9).flush t = true ∧ i ∈ ((cfg0.win 9).blk t).view.set := by
  have hi0 : (i 0).val < 16384 := (i 0).isLt
  have hi1 : (i 1).val < 384 := (i 1).isLt
  obtain ⟨t, ht⟩ : ∃ t : Fin cfg0.N, t.val = (i 0).val / 1024 :=
    ⟨⟨(i 0).val / 1024, by rw [show cfg0.N = 16 from N_0]; omega⟩, rfl⟩
  refine ⟨t, flush0_9 t, ?_⟩
  rw [mem_blk9]
  obtain ⟨e0, e1⟩ := index9 t
  intro a
  match a with
  | ⟨0, _⟩ =>
    show win0_9.index t (0 : Fin 2) * 1024 ≤ (i 0).val ∧ (i 0).val < win0_9.index t (0 : Fin 2) * 1024 + 1024
    rw [e0, ht]; omega
  | ⟨1, _⟩ =>
    show win0_9.index t (1 : Fin 2) * 384 ≤ (i 1).val ∧ (i 1).val < win0_9.index t (1 : Fin 2) * 384 + 384
    rw [e1]; omega

/-- THE ARRAY of window 9 after the region. -/
theorem final9 (c : Dev nD) : (dats m 0 c).arrAt 9 cfg0.N = mem2K m c :=
  (dats m 0 c).arrAt_eq_of_cover 9 (mem2K m c) (fun t _ => flushed9 m c t) cover9

/-! ## Output window 10: the third membranes -/

theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Entry (p, q) of output window 10's block at point t sits at (1024·t + p, q) of its array. -/
theorem emb10 (t : Fin cfg0.N) (p : Fin 1024) (q : Fin 256) :
    ((cfg0.win 10).blk t).view.emb (ix2 p q)
      = (ix2 (⟨t.val * 1024 + p.val, by have := t_lt t; have := p.isLt; omega⟩ : Fin 16384) q : S16384x256.Idx) := by
  refine funext fun a => Fin.ext ?_
  obtain ⟨e0, e1⟩ := index10 t
  match a with
  | ⟨0, _⟩ => show win0_10.index t (0 : Fin 2) * 1024 + 1 * p.val = t.val * 1024 + p.val; rw [e0]; omega
  | ⟨1, _⟩ => show win0_10.index t (1 : Fin 2) * 256 + 1 * q.val = q.val; rw [e1]; omega

/-- WHAT POINT t WRITES BACK through window 10 is block t of mem3K. -/
theorem flushed10 (c : Dev nD) (t : Fin cfg0.N) :
    (dats m 0 c).flushed 10 t = ((cfg0.win 10).blk t).view.read (Elt Ideal) (mem3K m c) := by
  show (cfg0.win 10).cut (grid0.coords t) ((dats m 0 c).after 10 t) = _
  rw [after0_10]
  unfold out0_10
  rw [View.canon_unit_zero hz]
  simp only [View.ld_unit_zero (S := S1024x256) hz, View.ld_unit_zero (S := S1024x384) hz, View.ld_unit_zero (S := S256x256) hz,
    View.ld_unit_zero (S := S256x384) hz, View.ld_unit_zero (S := S384x256) hz]
  funext y
  obtain ⟨p, q, rfl⟩ : ∃ (p : Fin 1024) (q : Fin 256), y = ix2 p q := ⟨y 0, y 1, eq_ix2 y⟩
  show _ = mem3K m c (((cfg0.win 10).blk t).view.emb (ix2 p q))
  refine Eq.trans ?_ (congrArg (mem3K m c) (emb10 t p q)).symm
  exact rows_mem3 m c t p q

/-- An index of the array is in point t's block iff each coordinate is in the block's range on its axis. -/
theorem mem_blk10 (t : Fin cfg0.N) (i : S16384x256.Idx) :
    i ∈ ((cfg0.win 10).blk t).view.set ↔ ∀ a : Fin 2, win0_10.index t a * S1024x256.size a ≤ (i a).val
      ∧ (i a).val < win0_10.index t a * S1024x256.size a + S1024x256.size a := by
  show i ∈ ((View.whole main_v16_3).slice (win0_10.rect t)).set ↔ _
  rw [View.set_slice_whole, Rect.mem_set_unit]
  exact Iff.rfl

/-- The sixteen blocks of 1024 rows tile the array: row r is in block r / 1024. -/
theorem cover10 (i : S16384x256.Idx) : ∃ t : Fin cfg0.N, (cfg0.win 10).flush t = true ∧ i ∈ ((cfg0.win 10).blk t).view.set := by
  have hi0 : (i 0).val < 16384 := (i 0).isLt
  have hi1 : (i 1).val < 256 := (i 1).isLt
  obtain ⟨t, ht⟩ : ∃ t : Fin cfg0.N, t.val = (i 0).val / 1024 :=
    ⟨⟨(i 0).val / 1024, by rw [show cfg0.N = 16 from N_0]; omega⟩, rfl⟩
  refine ⟨t, flush0_10 t, ?_⟩
  rw [mem_blk10]
  obtain ⟨e0, e1⟩ := index10 t
  intro a
  match a with
  | ⟨0, _⟩ =>
    show win0_10.index t (0 : Fin 2) * 1024 ≤ (i 0).val ∧ (i 0).val < win0_10.index t (0 : Fin 2) * 1024 + 1024
    rw [e0, ht]; omega
  | ⟨1, _⟩ =>
    show win0_10.index t (1 : Fin 2) * 256 ≤ (i 1).val ∧ (i 1).val < win0_10.index t (1 : Fin 2) * 256 + 256
    rw [e1]; omega

/-- THE ARRAY of window 10 after the region. -/
theorem final10 (c : Dev nD) : (dats m 0 c).arrAt 10 cfg0.N = mem3K m c :=
  (dats m 0 c).arrAt_eq_of_cover 10 (mem3K m c) (fun t _ => flushed10 m c t) cover10

/-! ## Output window 7: the output spikes -/

theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Entry (p, q) of output window 7's block at point t sits at (1024·t + p, q) of its array. -/
theorem emb7 (t : Fin cfg0.N) (p : Fin 1024) (q : Fin 256) :
    ((cfg0.win 7).blk t).view.emb (ix2 p q)
      = (ix2 (⟨t.val * 1024 + p.val, by have := t_lt t; have := p.isLt; omega⟩ : Fin 16384) q : S16384x256.Idx) := by
  refine funext fun a => Fin.ext ?_
  obtain ⟨e0, e1⟩ := index7 t
  match a with
  | ⟨0, _⟩ => show win0_7.index t (0 : Fin 2) * 1024 + 1 * p.val = t.val * 1024 + p.val; rw [e0]; omega
  | ⟨1, _⟩ => show win0_7.index t (1 : Fin 2) * 256 + 1 * q.val = q.val; rw [e1]; omega

/-- WHAT POINT t WRITES BACK through window 7 is block t of spk3K. -/
theorem flushed7 (c : Dev nD) (t : Fin cfg0.N) :
    (dats m 0 c).flushed 7 t = ((cfg0.win 7).blk t).view.read (Elt Ideal) (spk3K m c) := by
  show (cfg0.win 7).cut (grid0.coords t) ((dats m 0 c).after 7 t) = _
  rw [after0_7]
  unfold out0_7
  rw [View.canon_unit_zero hz]
  simp only [View.ld_unit_zero (S := S1024x256) hz, View.ld_unit_zero (S := S1024x384) hz, View.ld_unit_zero (S := S256x256) hz,
    View.ld_unit_zero (S := S256x384) hz, View.ld_unit_zero (S := S384x256) hz]
  funext y
  obtain ⟨p, q, rfl⟩ : ∃ (p : Fin 1024) (q : Fin 256), y = ix2 p q := ⟨y 0, y 1, eq_ix2 y⟩
  show _ = spk3K m c (((cfg0.win 7).blk t).view.emb (ix2 p q))
  refine Eq.trans ?_ (congrArg (spk3K m c) (emb7 t p q)).symm
  exact rows_spk3 m c t p q

/-- An index of the array is in point t's block iff each coordinate is in the block's range on its axis. -/
theorem mem_blk7 (t : Fin cfg0.N) (i : S16384x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v16_0).slice (win0_7.rect t)).set ↔ _
  rw [View.set_slice_whole, Rect.mem_set_unit]
  exact Iff.rfl

/-- The sixteen blocks of 1024 rows tile the array: row r is in block r / 1024. -/
theorem cover7 (i : S16384x256.Idx) : ∃ t : Fin cfg0.N, (cfg0.win 7).flush t = true ∧ i ∈ ((cfg0.win 7).blk t).view.set := by
  have hi0 : (i 0).val < 16384 := (i 0).isLt
  have hi1 : (i 1).val < 256 := (i 1).isLt
  obtain ⟨t, ht⟩ : ∃ t : Fin cfg0.N, t.val = (i 0).val / 1024 :=
    ⟨⟨(i 0).val / 1024, by rw [show cfg0.N = 16 from N_0]; omega⟩, rfl⟩
  refine ⟨t, flush0_7 t, ?_⟩
  rw [mem_blk7]
  obtain ⟨e0, e1⟩ := index7 t
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 256 ≤ (i 1).val ∧ (i 1).val < win0_7.index t (1 : Fin 2) * 256 + 256
    rw [e1]; omega

/-- THE ARRAY of window 7 after the region. -/
theorem final7 (c : Dev nD) : (dats m 0 c).arrAt 7 cfg0.N = spk3K m c :=
  (dats m 0 c).arrAt_eq_of_cover 7 (spk3K m c) (fun t _ => flushed7 m c t) cover7

end Cert.Snn.Blocks

end
-- ==== Proof.Run.lean ====
/-
  The idealized kernel's run, read: every weakly fair execution terminates with each of the four results at the
  whole-array function of the region-entry arrays that its output window ends at (the four lines after the region only
  re-read those arrays in the reference's shapes), and the arguments as launched.
-/
import proofs.«153012_j17188459118719_2_alg».proof.Proof.Blocks
import Idealize.ShloMosaic.Lib.StableHlo.Run

set_option maxRecDepth 16384

noncomputable section

namespace Cert.Snn.Run

open Cert.KernelIdeal Cert.KernelIdeal.Gen Idealize.ShloMosaic Idealize.ShloMosaic.TcCoe Idealize.ShloMosaic.ValueIdx
open Idealize.SL.Sem Idealize.ShloMosaic.StableHlo
open Cert.Snn Cert.Snn.Blocks

variable (m : (ℓ : Loc nD τ sig) → Buf (Elt Ideal) ℓ) (ρ : Dev nD → PrngReg)

/-! ## The lines after the region -/

/-- Result `v17`: the tail re-reads output window 7's array, spk3K, in the reference's shape. -/
theorem tail_v17 (c : Dev nD) :
    (Pipeline.afterTail₀ cfgs (dats m) 0 (V0 m) [hostOps1] c main_v17 : S2097152x2.Idx → EReal)
      = shapeCast S2097152x2 (spk3K m c) shapeCasts_S16384x256_S2097152x2 := by
  unfold Pipeline.afterTail₀
  show StableHlo.after hostOps1 _ (Proc.devRef .tc main_v17) = _
  after_results
  rw [Pipeline.withArrays_arr spec0 launch0.win.arr_inj c _ _ 7,
    show (dats m 0 c).arrAt 7 (cfgs 0).N = spk3K m c from final7 m c]
  rfl

/-- Result `v18`: the tail re-reads output window 8's array, mem1K, in the reference's shape. -/
theorem tail_v18 (c : Dev nD) :
    (Pipeline.afterTail₀ cfgs (dats m) 0 (V0 m) [hostOps1] c main_v18 : S2097152x2.Idx → EReal)
      = shapeCast S2097152x2 (mem1K m c) shapeCasts_S16384x256_S2097152x2 := by
  unfold Pipeline.afterTail₀
  show StableHlo.after hostOps1 _ (Proc.devRef .tc main_v18) = _
  after_results
  rw [Pipeline.withArrays_arr spec0 launch0.win.arr_inj c _ _ 8,
    show (dats m 0 c).arrAt 8 (cfgs 0).N = mem1K m c from final8 m c]
  rfl

/-- Result `v19`: the tail re-reads output window 9's array, mem2K, in the reference's shape. -/
theorem tail_v19 (c : Dev nD) :
    (Pipeline.afterTail₀ cfgs (dats m) 0 (V0 m) [hostOps1] c main_v19 : S2097152x3.Idx → EReal)
      = shapeCast S2097152x3 (mem2K m c) shapeCasts_S16384x384_S2097152x3 := by
  unfold Pipeline.afterTail₀
  show StableHlo.after hostOps1 _ (Proc.devRef .tc main_v19) = _
  after_results
  rw [Pipeline.withArrays_arr spec0 launch0.win.arr_inj c _ _ 9,
    show (dats m 0 c).arrAt 9 (cfgs 0).N = mem2K m c from final9 m c]
  rfl

/-- Result `v20`: the tail re-reads output window 10's array, mem3K, in the reference's shape. -/
theorem tail_v20 (c : Dev nD) :
    (Pipeline.afterTail₀ cfgs (dats m) 0 (V0 m) [hostOps1] c main_v20 : S2097152x2.Idx → EReal)
      = shapeCast S2097152x2 (mem3K m c) shapeCasts_S16384x256_S2097152x2 := by
  unfold Pipeline.afterTail₀
  show StableHlo.after hostOps1 _ (Proc.devRef .tc main_v20) = _
  after_results
  rw [Pipeline.withArrays_arr spec0 launch0.win.arr_inj c _ _ 10,
    show (dats m 0 c).arrAt 10 (cfgs 0).N = mem3K m c from final10 m c]
  rfl

/-! ## The run -/

/-- The generated frame run re-posted at the results and the arguments. -/
theorem run : θ_run defs (onTc (τ := τ) (main (F := Ideal))) ⟨m, fun _ => 0, ρ⟩ (fun r => ∀ c : Dev nD,
      r.2.mem ((c.tc : Thread nD τ).loc main_v17) = shapeCast S2097152x2 (spk3K m c) shapeCasts_S16384x256_S2097152x2
      ∧ r.2.mem ((c.tc : Thread nD τ).loc main_v18) = shapeCast S2097152x2 (mem1K m c) shapeCasts_S16384x256_S2097152x2
      ∧ r.2.mem ((c.tc : Thread nD τ).loc main_v19) = shapeCast S2097152x3 (mem2K m c) shapeCasts_S16384x384_S2097152x3
      ∧ r.2.mem ((c.tc : Thread nD τ).loc main_v20) = shapeCast S2097152x2 (mem3K m c) shapeCasts_S16384x256_S2097152x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v17 (Pipeline.mem_restRefs_of main_v17 (by decide) (by decide))).trans (tail_v17 m c),
      ((h c).2 main_v18 (Pipeline.mem_restRefs_of main_v18 (by decide) (by decide))).trans (tail_v18 m c),
      ((h c).2 main_v19 (Pipeline.mem_restRefs_of main_v19 (by decide) (by decide))).trans (tail_v19 m c),
      ((h c).2 main_v20 (Pipeline.mem_restRefs_of main_v20 (by decide) (by decide))).trans (tail_v20 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Snn.Run

end
-- ==== Proof.Head.lean ====
/-
  What the region finds in its operands' arrays, computed by the host lines before it.
  The four row arrays are the arguments re-read as [16384, 128·d]: packed row r, lane g·d + o holds entry o of row 128·r + g
  (the same row-major position), which is the packing relation `Rel`.  Each weight is `kron(I₁₂₈, Wᵀ)`: the 128 × 128
  identity (1 where the row index equals the column index, from two iotas compared) and the transposed weight, each
  broadcast to [128, K, 128, L], multiplied entry by entry and re-read as [128·K, 128·L] — entry (g'·K + i, g·L + o) is
  δ(g', g) · Wᵀ (i, o), which is the relation `Kron`.
-/
import proofs.«153012_j17188459118719_2_alg».proof.Proof.Gen.KernelIdeal.Frame
import proofs.«153012_j17188459118719_2_alg».proof.Proof.Spec
import Idealize.ShloMosaic.Lib.StableHlo.Run
import Idealize.ShloMosaic.Lib.Pipeline.Value
import Idealize.ShloMosaic.Lib.ValueIdx
import Idealize.ShloMosaic.Lib.Affine

noncomputable section

namespace Cert.Snn.Head

open Cert.KernelIdeal Cert.KernelIdeal.Gen Idealize.ShloMosaic Idealize.ShloMosaic.TcCoe Idealize.ShloMosaic.ValueIdx
open Idealize.SL.Sem Idealize.ShloMosaic.StableHlo
open Cert.Snn Cert.Lib.BlockSum

/-! ## The identity matrix -/

/-- The 128 × 128 identity as the program builds it: the row iota (plus a zero splat) compared with the column iota, as 0 / 1. -/
def eye : FVec Ideal S128x128 .f32 :=
  uitofp .f32 (cmpi .eq (addi (iotaInDim S128x128 32 0) (broadcastInDim S128x128 ![] bcast_S_S128x128 (constantI S_ 32 0#32)))
    (iotaInDim S128x128 32 1))

/-- Its entry (g', g) is 1 where g' = g and 0 elsewhere: indices below 128 are distinct as 32-bit words. -/
theorem eye_at (g' g : Fin 128) : eye (ix2 g' g) = if g' = g then (1 : EReal) else 0 := by
  show ind (IntOp.cmpi .eq (IntOp.addi (BitVec.ofNat 32 g'.val) (0#32)) (BitVec.ofNat 32 g.val)) = _
  by_cases h : g' = g
  · subst h
    rw [if_pos rfl]
    have e : IntOp.cmpi .eq (IntOp.addi (BitVec.ofNat 32 g'.val) (0#32)) (BitVec.ofNat 32 g'.val) = 1#1 :=
      IntOp.cmpi_eq.mpr (by simp [IntOp.addi])
    rw [e]
    simp [ind]
  · rw [if_neg h]
    have e : IntOp.cmpi .eq (IntOp.addi (BitVec.ofNat 32 g'.val) (0#32)) (BitVec.ofNat 32 g.val) = 0#1 := by
      refine eq_zero_of_ne_one fun e1 => h (Fin.ext ?_)
      have e2 := congrArg BitVec.toNat (IntOp.cmpi_eq.mp e1)
      simp only [IntOp.addi, BitVec.add_zero, BitVec.toNat_ofNat] at e2
      have hg' := g'.isLt
      have hg := g.isLt
      omega
    rw [e]
    simp [ind]

/-! ## The three block-diagonal weights -/

/-- The block-diagonal weight of a [2, 2] matrix, as the program builds it: the identity and the matrix each broadcast to
    [128, 2, 128, 2], multiplied, and re-read as [256, 256]. -/
def kron1 (w : FVec Ideal S2x2 .f32) : FVec Ideal S256x256 .f32 :=
  shapeCast S256x256 (mulf
      (broadcastInDim S128x2x128x2 ![0, 1, 2, 3] bcast_S128x1x128x1_S128x2x128x2_0_1_2_3 (broadcastInDim S128x1x128x1 ![0, 2] bcast_S128x128_S128x1x128x1_0_2 eye))
      (broadcastInDim S128x2x128x2 ![0, 1, 2, 3] bcast_S1x2x1x2_S128x2x128x2_0_1_2_3 (broadcastInDim S1x2x1x2 ![1, 3] bcast_S2x2_S1x2x1x2_1_3 w)))
    shapeCasts_S128x2x128x2_S256x256

/-- Entry (g'·2 + i, g·2 + o) of it is δ(g', g) · w (i, o): the row-major position of (g', i, g, o) in [128, 2, 128, 2] is
    that of (g'·2 + i, g·2 + o) in [256, 256]; each broadcast reads its operand at the coordinates it keeps. -/
theorem kron1_spec (w : FVec Ideal S2x2 .f32) : Kron (G := 128) (K := 2) (L := 2) (kron1 w) w := by
  intro g' i g o
  unfold kron1
  refine (shapeCast_apply _ shapeCasts_S128x2x128x2_S256x256 _ (ix4 g' i g o) ?_).trans ?_
  · rw [Shape.rowMajor_val_four, Shape.rowMajor_val_two]
    show ((g'.val * 2 + i.val) * 128 + g.val) * 2 + o.val = (g'.val * 2 + i.val) * 256 + (g.val * 2 + o.val)
    omega
  rw [mulf_apply]
  refine congrArg₂ (· * ·) ?_ ?_
  · refine (broadcastInDim_apply _ bcast_S128x1x128x1_S128x2x128x2_0_1_2_3 _ (ix4 g' i g o) (ix4 g' (0 : Fin 1) g (0 : Fin 1)) ?_).trans ?_
    · intro a
      match a with
      | ⟨0, _⟩ => rfl
      | ⟨1, _⟩ => rfl
      | ⟨2, _⟩ => rfl
      | ⟨3, _⟩ => rfl
    refine (broadcastInDim_apply _ bcast_S128x128_S128x1x128x1_0_2 _ (ix4 g' (0 : Fin 1) g (0 : Fin 1)) (ix2 g' g) ?_).trans (eye_at g' g)
    intro a
    match a with
    | ⟨0, _⟩ => rfl
    | ⟨1, _⟩ => rfl
  · refine (broadcastInDim_apply _ bcast_S1x2x1x2_S128x2x128x2_0_1_2_3 _ (ix4 g' i g o) (ix4 (0 : Fin 1) i (0 : Fin 1) o) ?_).trans ?_
    · intro a
      match a with
      | ⟨0, _⟩ => rfl
      | ⟨1, _⟩ => rfl
      | ⟨2, _⟩ => rfl
      | ⟨3, _⟩ => rfl
    refine broadcastInDim_apply _ bcast_S2x2_S1x2x1x2_1_3 _ (ix4 (0 : Fin 1) i (0 : Fin 1) o) (ix2 i o) ?_
    intro a
    match a with
    | ⟨0, _⟩ => rfl
    | ⟨1, _⟩ => rfl

/-- The block-diagonal weight of a [2, 3] matrix, as the program builds it: the identity and the matrix each broadcast to
    [128, 2, 128, 3], multiplied, and re-read as [256, 384]. -/
def kron2 (w : FVec Ideal S2x3 .f32) : FVec Ideal S256x384 .f32 :=
  shapeCast S256x384 (mulf
      (broadcastInDim S128x2x128x3 ![0, 1, 2, 3] bcast_S128x1x128x1_S128x2x128x3_0_1_2_3 (broadcastInDim S128x1x128x1 ![0, 2] bcast_S128x128_S128x1x128x1_0_2 eye))
      (broadcastInDim S128x2x128x3 ![0, 1, 2, 3] bcast_S1x2x1x3_S128x2x128x3_0_1_2_3 (broadcastInDim S1x2x1x3 ![1, 3] bcast_S2x3_S1x2x1x3_1_3 w)))
    shapeCasts_S128x2x128x3_S256x384

/-- Entry (g'·2 + i, g·3 + o) of it is δ(g', g) · w (i, o): the row-major position of (g', i, g, o) in [128, 2, 128, 3] is
    that of (g'·2 + i, g·3 + o) in [256, 384]; each broadcast reads its operand at the coordinates it keeps. -/
theorem kron2_spec (w : FVec Ideal S2x3 .f32) : Kron (G := 128) (K := 2) (L := 3) (kron2 w) w := by
  intro g' i g o
  unfold kron2
  refine (shapeCast_apply _ shapeCasts_S128x2x128x3_S256x384 _ (ix4 g' i g o) ?_).trans ?_
  · rw [Shape.rowMajor_val_four, Shape.rowMajor_val_two]
    show ((g'.val * 2 + i.val) * 128 + g.val) * 3 + o.val = (g'.val * 2 + i.val) * 384 + (g.val * 3 + o.val)
    omega
  rw [mulf_apply]
  refine congrArg₂ (· * ·) ?_ ?_
  · refine (broadcastInDim_apply _ bcast_S128x1x128x1_S128x2x128x3_0_1_2_3 _ (ix4 g' i g o) (ix4 g' (0 : Fin 1) g (0 : Fin 1)) ?_).trans ?_
    · intro a
      match a with
      | ⟨0, _⟩ => rfl
      | ⟨1, _⟩ => rfl
      | ⟨2, _⟩ => rfl
      | ⟨3, _⟩ => rfl
    refine (broadcastInDim_apply _ bcast_S128x128_S128x1x128x1_0_2 _ (ix4 g' (0 : Fin 1) g (0 : Fin 1)) (ix2 g' g) ?_).trans (eye_at g' g)
    intro a
    match a with
    | ⟨0, _⟩ => rfl
    | ⟨1, _⟩ => rfl
  · refine (broadcastInDim_apply _ bcast_S1x2x1x3_S128x2x128x3_0_1_2_3 _ (ix4 g' i g o) (ix4 (0 : Fin 1) i (0 : Fin 1) o) ?_).trans ?_
    · intro a
      match a with
      | ⟨0, _⟩ => rfl
      | ⟨1, _⟩ => rfl
      | ⟨2, _⟩ => rfl
      | ⟨3, _⟩ => rfl
    refine broadcastInDim_apply _ bcast_S2x3_S1x2x1x3_1_3 _ (ix4 (0 : Fin 1) i (0 : Fin 1) o) (ix2 i o) ?_
    intro a
    match a with
    | ⟨0, _⟩ => rfl
    | ⟨1, _⟩ => rfl

/-- The block-diagonal weight of a [3, 2] matrix, as the program builds it: the identity and the matrix each broadcast to
    [128, 3, 128, 2], multiplied, and re-read as [384, 256]. -/
def kron3 (w : FVec Ideal S3x2 .f32) : FVec Ideal S384x256 .f32 :=
  shapeCast S384x256 (mulf
      (broadcastInDim S128x3x128x2 ![0, 1, 2, 3] bcast_S128x1x128x1_S128x3x128x2_0_1_2_3 (broadcastInDim S128x1x128x1 ![0, 2] bcast_S128x128_S128x1x128x1_0_2 eye))
      (broadcastInDim S128x3x128x2 ![0, 1, 2, 3] bcast_S1x3x1x2_S128x3x128x2_0_1_2_3 (broadcastInDim S1x3x1x2 ![1, 3] bcast_S3x2_S1x3x1x2_1_3 w)))
    shapeCasts_S128x3x128x2_S384x256

/-- Entry (g'·3 + i, g·2 + o) of it is δ(g', g) · w (i, o): the row-major position of (g', i, g, o) in [128, 3, 128, 2] is
    that of (g'·3 + i, g·2 + o) in [384, 256]; each broadcast reads its operand at the coordinates it keeps. -/
theorem kron3_spec (w : FVec Ideal S3x2 .f32) : Kron (G := 128) (K := 3) (L := 2) (kron3 w) w := by
  intro g' i g o
  unfold kron3
  refine (shapeCast_apply _ shapeCasts_S128x3x128x2_S384x256 _ (ix4 g' i g o) ?_).trans ?_
  · rw [Shape.rowMajor_val_four, Shape.rowMajor_val_two]
    show ((g'.val * 3 + i.val) * 128 + g.val) * 2 + o.val = (g'.val * 3 + i.val) * 256 + (g.val * 2 + o.val)
    omega
  rw [mulf_apply]
  refine congrArg₂ (· * ·) ?_ ?_
  · refine (broadcastInDim_apply _ bcast_S128x1x128x1_S128x3x128x2_0_1_2_3 _ (ix4 g' i g o) (ix4 g' (0 : Fin 1) g (0 : Fin 1)) ?_).trans ?_
    · intro a
      match a with
      | ⟨0, _⟩ => rfl
      | ⟨1, _⟩ => rfl
      | ⟨2, _⟩ => rfl
      | ⟨3, _⟩ => rfl
    refine (broadcastInDim_apply _ bcast_S128x128_S128x1x128x1_0_2 _ (ix4 g' (0 : Fin 1) g (0 : Fin 1)) (ix2 g' g) ?_).trans (eye_at g' g)
    intro a
    match a with
    | ⟨0, _⟩ => rfl
    | ⟨1, _⟩ => rfl
  · refine (broadcastInDim_apply _ bcast_S1x3x1x2_S128x3x128x2_0_1_2_3 _ (ix4 g' i g o) (ix4 (0 : Fin 1) i (0 : Fin 1) o) ?_).trans ?_
    · intro a
      match a with
      | ⟨0, _⟩ => rfl
      | ⟨1, _⟩ => rfl
      | ⟨2, _⟩ => rfl
      | ⟨3, _⟩ => rfl
    refine broadcastInDim_apply _ bcast_S3x2_S1x3x1x2_1_3 _ (ix4 (0 : Fin 1) i (0 : Fin 1) o) (ix2 i o) ?_
    intro a
    match a with
    | ⟨0, _⟩ => rfl
    | ⟨1, _⟩ => rfl

/-! ## A reshape to packed rows packs -/

theorem rel_shapeCast2 (x : S2097152x2.Idx → EReal) :
    Rel (R := 16384) (G := 128) (D := 2) (shapeCast S16384x256 x shapeCasts_S2097152x2_S16384x256) x := by
  intro r g o
  refine shapeCast_apply x shapeCasts_S2097152x2_S16384x256 _ _ ?_
  rw [Shape.rowMajor_val_two, Shape.rowMajor_val_two]
  show (r.val * 128 + g.val) * 2 + o.val = r.val * 256 + (g.val * 2 + o.val)
  omega

theorem rel_shapeCast3 (x : S2097152x3.Idx → EReal) :
    Rel (R := 16384) (G := 128) (D := 3) (shapeCast S16384x384 x shapeCasts_S2097152x3_S16384x384) x := by
  intro r g o
  refine shapeCast_apply x shapeCasts_S2097152x3_S16384x384 _ _ ?_
  rw [Shape.rowMajor_val_two, Shape.rowMajor_val_two]
  show (r.val * 128 + g.val) * 3 + o.val = r.val * 384 + (g.val * 3 + o.val)
  omega

/-! ## The arrays as the region finds them -/

variable (m : (ℓ : Loc nD τ sig) → Buf (Elt Ideal) ℓ)

theorem V_v0 (c : Dev nD) :
    (V m c main_v0 : S16384x256.Idx → EReal) = shapeCast S16384x256 (m ((c : Thread nD τ).loc main_arg0)) shapeCasts_S2097152x2_S16384x256 := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

theorem V_v1 (c : Dev nD) :
    (V m c main_v1 : S16384x256.Idx → EReal) = shapeCast S16384x256 (m ((c : Thread nD τ).loc main_arg1)) shapeCasts_S2097152x2_S16384x256 := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

theorem V_v2 (c : Dev nD) :
    (V m c main_v2 : S16384x384.Idx → EReal) = shapeCast S16384x384 (m ((c : Thread nD τ).loc main_arg2)) shapeCasts_S2097152x3_S16384x384 := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

theorem V_v3 (c : Dev nD) :
    (V m c main_v3 : S16384x256.Idx → EReal) = shapeCast S16384x256 (m ((c : Thread nD τ).loc main_arg3)) shapeCasts_S2097152x2_S16384x256 := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

theorem V_v11 (c : Dev nD) :
    (V m c main_v11 : S256x256.Idx → EReal)
      = kron1 (transpose S2x2 [1, 0] (m ((c : Thread nD τ).loc main_arg4)) transposes_S2x2_S2x2_1_0) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

theorem V_v13 (c : Dev nD) :
    (V m c main_v13 : S256x384.Idx → EReal)
      = kron2 (transpose S2x3 [1, 0] (m ((c : Thread nD τ).loc main_arg5)) transposes_S3x2_S2x3_1_0) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

set_option maxHeartbeats 1600000 in  -- the last of the 27 host lines before the region: its read-back walks them all
theorem V_v15 (c : Dev nD) :
    (V m c main_v15 : S384x256.Idx → EReal)
      = kron3 (transpose S3x2 [1, 0] (m ((c : Thread nD τ).loc main_arg6)) transposes_S2x3_S3x2_1_0) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results
  rfl

end Cert.Snn.Head

end
-- ==== Proof.RefLayers.lean ====
/-
  The reference, stage by stage, is the three layers on the plain batch:
      mem1' = layer x W1ᵀ mem1,  mem2' = layer (spikes mem1') W2ᵀ mem2,  mem3' = layer (spikes mem2') W3ᵀ mem3,  out = spikes mem3'
  with Wᵀ the transposed weights as the reference's own transposes give them.  Entry (b, o) of a `dot_general` of a
  [B, K] array with a [K, L] one is ∑ₖ a (b, k) · w (k, o); the comparison, its conversion to 0 / 1 and the arithmetic
  around it are entry by entry, and are `lif` / `spk` by definition.
-/
import proofs.«153012_j17188459118719_2_alg».proof.Proof.Gen.ReferenceIdeal.Read
import proofs.«153012_j17188459118719_2_alg».proof.Proof.Spec

noncomputable section

namespace Cert.Snn.Ref

open Cert.ReferenceIdeal Cert.ReferenceIdeal.Gen Cert.ReferenceIdeal.Read Idealize.ShloMosaic Idealize.ShloMosaic.ValueIdx Cert.Snn

/-! ## The operand indices of the three contractions, at an entry (b, o) and a contracted coordinate k -/

theorem lidx1 (b : Fin 2097152) (o : Fin 2) (k : Fin 2) : lidx_main_v1 (ix2 b o) k = ix2 b k :=
  funext fun a => by match a with | ⟨0, _⟩ => rfl | ⟨1, _⟩ => rfl
theorem ridx1 (b : Fin 2097152) (o : Fin 2) (k : Fin 2) : ridx_main_v1 (ix2 b o) k = ix2 k o :=
  funext fun a => by match a with | ⟨0, _⟩ => rfl | ⟨1, _⟩ => rfl
theorem lidx17 (b : Fin 2097152) (o : Fin 3) (k : Fin 2) : lidx_main_v17 (ix2 b o) k = ix2 b k :=
  funext fun a => by match a with | ⟨0, _⟩ => rfl | ⟨1, _⟩ => rfl
theorem ridx17 (b : Fin 2097152) (o : Fin 3) (k : Fin 2) : ridx_main_v17 (ix2 b o) k = ix2 k o :=
  funext fun a => by match a with | ⟨0, _⟩ => rfl | ⟨1, _⟩ => rfl
theorem lidx33 (b : Fin 2097152) (o : Fin 2) (k : Fin 3) : lidx_main_v33 (ix2 b o) k = ix2 b k :=
  funext fun a => by match a with | ⟨0, _⟩ => rfl | ⟨1, _⟩ => rfl
theorem ridx33 (b : Fin 2097152) (o : Fin 2) (k : Fin 3) : ridx_main_v33 (ix2 b o) k = ix2 k o :=
  funext fun a => by match a with | ⟨0, _⟩ => rfl | ⟨1, _⟩ => rfl

/-! ## The stages -/

/-- The first membrane: the layer of the input rows against W1ᵀ. -/
theorem mem1_eq (x0 x1 : (⟨S2097152x2, .f32⟩ : BufTy).Contents (Elt Ideal)) (x4 : (⟨S2x2, .f32⟩ : BufTy).Contents (Elt Ideal)) :
    val_main_v10 (F := Ideal) x0 x1 x4 = layer x0 (val_main_v0 (F := Ideal) x4) x1 := by
  funext i
  obtain ⟨b, o, rfl⟩ : ∃ (b : Fin 2097152) (o : Fin 2), i = ix2 b o := ⟨i 0, i 1, eq_ix2 i⟩
  rw [layer_apply, val_main_v10_apply, val_main_v7_apply, val_main_v1_apply]
  simp only [lidx1, ridx1]
  rfl

/-- The first spikes. -/
theorem spk1_eq (x0 x1 : (⟨S2097152x2, .f32⟩ : BufTy).Contents (Elt Ideal)) (x4 : (⟨S2x2, .f32⟩ : BufTy).Contents (Elt Ideal)) :
    val_main_v15 (F := Ideal) x0 x1 x4 = spikes (val_main_v10 (F := Ideal) x0 x1 x4) := by
  funext i
  rfl

/-- The second membrane: the layer of the first spikes against W2ᵀ. -/
theorem mem2_eq (x0 x1 : (⟨S2097152x2, .f32⟩ : BufTy).Contents (Elt Ideal)) (x2 : (⟨S2097152x3, .f32⟩ : BufTy).Contents (Elt Ideal)) (x4 : (⟨S2x2, .f32⟩ : BufTy).Contents (Elt Ideal)) (x5 : (⟨S3x2, .f32⟩ : BufTy).Contents (Elt Ideal)) :
    val_main_v26 (F := Ideal) x0 x1 x2 x4 x5
      = layer (val_main_v15 (F := Ideal) x0 x1 x4) (val_main_v16 (F := Ideal) x5) x2 := by
  funext i
  obtain ⟨b, o, rfl⟩ : ∃ (b : Fin 2097152) (o : Fin 3), i = ix2 b o := ⟨i 0, i 1, eq_ix2 i⟩
  rw [layer_apply, val_main_v26_apply, val_main_v23_apply, val_main_v17_apply]
  simp only [lidx17, ridx17]
  rfl

/-- The second spikes. -/
theorem spk2_eq (x0 x1 : (⟨S2097152x2, .f32⟩ : BufTy).Contents (Elt Ideal)) (x2 : (⟨S2097152x3, .f32⟩ : BufTy).Contents (Elt Ideal)) (x4 : (⟨S2x2, .f32⟩ : BufTy).Contents (Elt Ideal)) (x5 : (⟨S3x2, .f32⟩ : BufTy).Contents (Elt Ideal)) :
    val_main_v31 (F := Ideal) x0 x1 x2 x4 x5 = spikes (val_main_v26 (F := Ideal) x0 x1 x2 x4 x5) := by
  funext i
  rfl

/-- The third membrane: the layer of the second spikes against W3ᵀ. -/
theorem mem3_eq (x0 x1 : (⟨S2097152x2, .f32⟩ : BufTy).Contents (Elt Ideal)) (x2 : (⟨S2097152x3, .f32⟩ : BufTy).Contents (Elt Ideal)) (x3 : (⟨S2097152x2, .f32⟩ : BufTy).Contents (Elt Ideal)) (x4 : (⟨S2x2, .f32⟩ : BufTy).Contents (Elt Ideal)) (x5 : (⟨S3x2, .f32⟩ : BufTy).Contents (Elt Ideal)) (x6 : (⟨S2x3, .f32⟩ : BufTy).Contents (Elt Ideal)) :
    val_main_v42 (F := Ideal) x0 x1 x2 x3 x4 x5 x6
      = layer (val_main_v31 (F := Ideal) x0 x1 x2 x4 x5) (val_main_v32 (F := Ideal) x6) x3 := by
  funext i
  obtain ⟨b, o, rfl⟩ : ∃ (b : Fin 2097152) (o : Fin 2), i = ix2 b o := ⟨i 0, i 1, eq_ix2 i⟩
  rw [layer_apply, val_main_v42_apply, val_main_v39_apply, val_main_v33_apply]
  simp only [lidx33, ridx33]
  rfl

/-- The output spikes. -/
theorem spk3_eq (x0 x1 : (⟨S2097152x2, .f32⟩ : BufTy).Contents (Elt Ideal)) (x2 : (⟨S2097152x3, .f32⟩ : BufTy).Contents (Elt Ideal)) (x3 : (⟨S2097152x2, .f32⟩ : BufTy).Contents (Elt Ideal)) (x4 : (⟨S2x2, .f32⟩ : BufTy).Contents (Elt Ideal)) (x5 : (⟨S3x2, .f32⟩ : BufTy).Contents (Elt Ideal)) (x6 : (⟨S2x3, .f32⟩ : BufTy).Contents (Elt Ideal)) :
    val_main_v47 (F := Ideal) x0 x1 x2 x3 x4 x5 x6 = spikes (val_main_v42 (F := Ideal) x0 x1 x2 x3 x4 x5 x6) := by
  funext i
  rfl

end Cert.Snn.Ref

end
-- ==== Proof.Bridge.lean ====
/-
  The kernel's four results are the reference's.
  The packed inputs pack the arguments (they are their reshapes), the weights the region finds are the block-diagonal
  matrices of the transposed weights, so layer by layer (`rel_layer`, `rel_spikes`) each packed whole-array function of
  the kernel packs the reference's stage; and re-reading a packed array in the plain shape gives back what it packs:
  entry (b, o) of the plain shape sits at packed row b / 128, lane (b mod 128) · d + o.
-/
import proofs.«153012_j17188459118719_2_alg».proof.Proof.Blocks
import proofs.«153012_j17188459118719_2_alg».proof.Proof.Head
import proofs.«153012_j17188459118719_2_alg».proof.Proof.RefLayers

noncomputable section

namespace Cert.Snn.Bridge

open Cert.KernelIdeal Cert.KernelIdeal.Gen Idealize.ShloMosaic Idealize.ShloMosaic.TcCoe Idealize.ShloMosaic.ValueIdx
open Idealize.SL.Sem
open Cert.Snn Cert.Snn.Blocks Cert.Snn.Head Cert.Lib.BlockSum

/-! ## Re-reading a packed array in the plain shape -/

theorem unpack2 {P : Mat 16384 (128 * 2)} {Q : Mat (16384 * 128) 2} (h : Rel P Q) :
    shapeCast S2097152x2 P shapeCasts_S16384x256_S2097152x2 = Q := by
  funext j
  obtain ⟨b, o, rfl⟩ : ∃ (b : Fin 2097152) (o : Fin 2), j = ix2 b o := ⟨j 0, j 1, eq_ix2 j⟩
  have hb := b.isLt
  refine (shapeCast_apply P shapeCasts_S16384x256_S2097152x2 (ix2 b o)
    (ix2 (⟨b.val / 128, by omega⟩ : Fin 16384) (at_ (⟨b.val % 128, by omega⟩ : Fin 128) o)) ?_).trans ?_
  · rw [Shape.rowMajor_val_two, Shape.rowMajor_val_two]
    show b.val / 128 * 256 + (b.val % 128 * 2 + o.val) = b.val * 2 + o.val
    omega
  · rw [h]
    refine congrArg Q (funext fun a => ?_)
    match a with
    | ⟨0, _⟩ => exact Fin.ext (by show b.val / 128 * 128 + b.val % 128 = b.val; omega)
    | ⟨1, _⟩ => rfl

theorem unpack3 {P : Mat 16384 (128 * 3)} {Q : Mat (16384 * 128) 3} (h : Rel P Q) :
    shapeCast S2097152x3 P shapeCasts_S16384x384_S2097152x3 = Q := by
  funext j
  obtain ⟨b, o, rfl⟩ : ∃ (b : Fin 2097152) (o : Fin 3), j = ix2 b o := ⟨j 0, j 1, eq_ix2 j⟩
  have hb := b.isLt
  refine (shapeCast_apply P shapeCasts_S16384x384_S2097152x3 (ix2 b o)
    (ix2 (⟨b.val / 128, by omega⟩ : Fin 16384) (at_ (⟨b.val % 128, by omega⟩ : Fin 128) o)) ?_).trans ?_
  · rw [Shape.rowMajor_val_two, Shape.rowMajor_val_two]
    show b.val / 128 * 384 + (b.val % 128 * 3 + o.val) = b.val * 3 + o.val
    omega
  · rw [h]
    refine congrArg Q (funext fun a => ?_)
    match a with
    | ⟨0, _⟩ => exact Fin.ext (by show b.val / 128 * 128 + b.val % 128 = b.val; omega)
    | ⟨1, _⟩ => rfl

variable (m : (ℓ : Loc nD τ sig) → Buf (Elt Ideal) ℓ)

/-! ## What the region finds, against the arguments -/

theorem rel_v0 (c : Dev nD) : Rel (R := 16384) (G := 128) (D := 2) (V m c main_v0) (m ((c.tc : Thread nD τ).loc main_arg0)) := by
  rw [V_v0]; exact rel_shapeCast2 _
theorem rel_v1 (c : Dev nD) : Rel (R := 16384) (G := 128) (D := 2) (V m c main_v1) (m ((c.tc : Thread nD τ).loc main_arg1)) := by
  rw [V_v1]; exact rel_shapeCast2 _
theorem rel_v2 (c : Dev nD) : Rel (R := 16384) (G := 128) (D := 3) (V m c main_v2) (m ((c.tc : Thread nD τ).loc main_arg2)) := by
  rw [V_v2]; exact rel_shapeCast3 _
theorem rel_v3 (c : Dev nD) : Rel (R := 16384) (G := 128) (D := 2) (V m c main_v3) (m ((c.tc : Thread nD τ).loc main_arg3)) := by
  rw [V_v3]; exact rel_shapeCast2 _

theorem kron_v11 (c : Dev nD) :
    Kron (G := 128) (K := 2) (L := 2) (V m c main_v11) (Cert.ReferenceIdeal.Read.val_main_v0 (F := Ideal) (m ((c.tc : Thread nD τ).loc main_arg4))) := by
  rw [V_v11]; exact kron1_spec _
theorem kron_v13 (c : Dev nD) :
    Kron (G := 128) (K := 2) (L := 3) (V m c main_v13) (Cert.ReferenceIdeal.Read.val_main_v16 (F := Ideal) (m ((c.tc : Thread nD τ).loc main_arg5))) := by
  rw [V_v13]; exact kron2_spec _
theorem kron_v15 (c : Dev nD) :
    Kron (G := 128) (K := 3) (L := 2) (V m c main_v15) (Cert.ReferenceIdeal.Read.val_main_v32 (F := Ideal) (m ((c.tc : Thread nD τ).loc main_arg6))) := by
  rw [V_v15]; exact kron3_spec _

/-! ## Layer by layer -/

theorem rel_mem1 (c : Dev nD) :
    Rel (R := 16384) (G := 128) (D := 2) (mem1K m c) (Cert.ReferenceIdeal.Read.val_main_v10 (F := Ideal) (m ((c.tc : Thread nD τ).loc main_arg0)) (m ((c.tc : Thread nD τ).loc main_arg1)) (m ((c.tc : Thread nD τ).loc main_arg4))) := by
  rw [Ref.mem1_eq]
  unfold mem1K
  exact rel_layer (R := 16384) (G := 128) (K := 2) (L := 2) (rel_v0 m c) (rel_v1 m c) (kron_v11 m c)

theorem rel_mem2 (c : Dev nD) :
    Rel (R := 16384) (G := 128) (D := 3) (mem2K m c)
      (Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) := by
  rw [Ref.mem2_eq, Ref.spk1_eq]
  unfold mem2K
  exact rel_layer (R := 16384) (G := 128) (K := 2) (L := 3) (rel_spikes (rel_mem1 m c)) (rel_v2 m c) (kron_v13 m c)

theorem rel_mem3 (c : Dev nD) :
    Rel (R := 16384) (G := 128) (D := 2) (mem3K m c)
      (Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [Ref.mem3_eq, Ref.spk2_eq]
  unfold mem3K
  exact rel_layer (R := 16384) (G := 128) (K := 3) (L := 2) (rel_spikes (rel_mem2 m c)) (rel_v3 m c) (kron_v15 m c)

theorem rel_spk3 (c : Dev nD) :
    Rel (R := 16384) (G := 128) (D := 2) (spk3K m c)
      (Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [Ref.spk3_eq]
  unfold spk3K
  exact rel_spikes (rel_mem3 m c)

/-! ## The four results -/

theorem out_spk3 (c : Dev nD) :
    shapeCast S2097152x2 (spk3K m c) shapeCasts_S16384x256_S2097152x2
      = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  unpack2 (rel_spk3 m c)

theorem out_mem1 (c : Dev nD) :
    shapeCast S2097152x2 (mem1K m c) shapeCasts_S16384x256_S2097152x2
      = Cert.ReferenceIdeal.Read.val_main_v10 (F := Ideal) (m ((c.tc : Thread nD τ).loc main_arg0)) (m ((c.tc : Thread nD τ).loc main_arg1)) (m ((c.tc : Thread nD τ).loc main_arg4)) :=
  unpack2 (rel_mem1 m c)

theorem out_mem2 (c : Dev nD) :
    shapeCast S2097152x3 (mem2K m c) shapeCasts_S16384x384_S2097152x3
      = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
  unpack3 (rel_mem2 m c)

theorem out_mem3 (c : Dev nD) :
    shapeCast S2097152x2 (mem3K m c) shapeCasts_S16384x256_S2097152x2
      = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  unpack2 (rel_mem3 m c)

end Cert.Snn.Bridge

end
-- ==== Proof.lean ====
/-
  A spiking network of three Linear (no bias) + leaky-integrate-and-fire layers, applied independently to each of
  2 097 152 rows (feature widths 2 → 2 → 3 → 2), against its plain jnp reference.

  The reference computes, row by row,
      mem1' = lif mem1 (x · W1ᵀ),  s1 = spk mem1',  mem2' = lif mem2 (s1 · W2ᵀ),  s2 = spk mem2',
      mem3' = lif mem3 (s2 · W3ᵀ),  out = spk mem3',
  with lif m c = (λ m + c) · (1 − [m > θ]) and spk v = [v − θ > 0], and returns (out, mem1', mem2', mem3').

  The kernel reads every 128 consecutive rows as ONE lane-dense row (a reshape: the same row-major positions) and
  replaces each small weight by the block-diagonal matrix kron(I₁₂₈, Wᵀ); a grid of sixteen points each handles 1024 packed
  rows, with three matmuls against the whole block-diagonal weights; four reshapes give the results back their shapes.

  Why the two agree on the extended reals.  In the packed row's contraction over 128 · K lanes, the terms of an
  off-diagonal block are a · (0 · w) = 0 and those of the diagonal block are a · (1 · w) = a · w, so the packed layer at
  (r, g · L + o) is the plain layer at (128 r + g, o) (`Cert.Snn.rel_layer`); comparisons, their 0 / 1 conversions and the
  membrane arithmetic are entry by entry on both sides.  Only 0 · w = 0, w · 0 = 0, 1 · w = w and the commutative-monoid laws
  of + are used, which hold at the infinities too: the finiteness of the inputs is not needed for the values.

  The three frames are the generated frame certificates (the reference's is its generated run with the results dropped);
  the ideal pass rewrote nothing, so `preserves` is `True`.  The kernel's value is read off its generated frame run
  (`Cert.Snn.Run.run`: payloads → blocks → arrays → the reshapes after the region), the reference's off its generated run
  (`Cert.Snn.Ref`), and `Cert.Snn.Bridge` joins them.
-/
import proofs.«153012_j17188459118719_2_alg».proof.Defs
import proofs.«153012_j17188459118719_2_alg».proof.Proof.Gen.Kernel
import proofs.«153012_j17188459118719_2_alg».proof.Proof.Gen.Kernel.Skeleton
import proofs.«153012_j17188459118719_2_alg».proof.Proof.Gen.Kernel.Launch
import proofs.«153012_j17188459118719_2_alg».proof.Proof.Gen.Kernel.Points
import proofs.«153012_j17188459118719_2_alg».proof.Proof.Gen.Kernel.Frame
import proofs.«153012_j17188459118719_2_alg».proof.Proof.Gen.KernelIdeal
import proofs.«153012_j17188459118719_2_alg».proof.Proof.Gen.KernelIdeal.Skeleton
import proofs.«153012_j17188459118719_2_alg».proof.Proof.Gen.KernelIdeal.Launch
import proofs.«153012_j17188459118719_2_alg».proof.Proof.Gen.KernelIdeal.Points
import proofs.«153012_j17188459118719_2_alg».proof.Proof.Gen.KernelIdeal.Frame
import proofs.«153012_j17188459118719_2_alg».proof.Proof.Gen.ReferenceIdeal
import proofs.«153012_j17188459118719_2_alg».proof.Proof.Gen.Pre_finite_inputs
import proofs.«153012_j17188459118719_2_alg».proof.Proof.Gen.ReferenceIdeal.Run
import proofs.«153012_j17188459118719_2_alg».proof.Proof.Gen.ReferenceIdeal.Read
import proofs.«153012_j17188459118719_2_alg».proof.Proof.Run
import proofs.«153012_j17188459118719_2_alg».proof.Proof.Bridge
import Idealize.ShloMosaic.Adequacy
import Idealize.ShloMosaic.Init

noncomputable section

namespace Cert.Proof

open Idealize.ShloMosaic Idealize.SL.Sem

/-- The kernel as printed runs, and its arguments end as launched: the generated frame certificate. -/
theorem frame_k : Cert.frame_Kernel := fun m ρ _ => Cert.Kernel.Gen.frame m ρ

/-- The same at the ideal values. -/
theorem frame_ki : Cert.frame_KernelIdeal := fun m ρ _ => Cert.KernelIdeal.Gen.frame m ρ

/-- The reference runs, and its arguments end as launched: its generated run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-- From memories agreeing on the arguments both programs end, with the four results equal entry by entry: the kernel's
    at the re-read packed layers (`Cert.Snn.Run.run`), the reference's at its stages, and the packed layers pack the
    stages (`Cert.Snn.Bridge`). -/
theorem algebraic : Cert.algebraic_KernelIdeal_ReferenceIdeal := by
  intro m ρ m' ρ' _ hagree
  refine ⟨_, _, _, _, Cert.Snn.Run.run m ρ, ?_⟩
  refine (θ_run Cert.ReferenceIdeal.defs _ _).mono (fun _ h c =>
      ⟨(h c).1.trans ?_, (h c).2.1.trans ?_, (h c).2.2.1.trans ?_, (h c).2.2.2.1.trans ?_, (h c).2.2.2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2]
    exact (Cert.Snn.Bridge.out_spk3 m c).symm
  · rw [(hagree c).1, (hagree c).2.1, (hagree c).2.2.2.2.1]
    exact (Cert.Snn.Bridge.out_mem1 m c).symm
  · rw [(hagree c).1, (hagree c).2.1, (hagree c).2.2.1, (hagree c).2.2.2.2.1, (hagree c).2.2.2.2.2.1]
    exact (Cert.Snn.Bridge.out_mem2 m c).symm
  · rw [(hagree c).1, (hagree c).2.1, (hagree c).2.2.1, (hagree c).2.2.2.1, (hagree c).2.2.2.2.1, (hagree c).2.2.2.2.2.1, (hagree c).2.2.2.2.2.2]
    exact (Cert.Snn.Bridge.out_mem3 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
